-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x6400000 : Shape := ⟨2, ![2, 6400000]⟩
abbrev S3x16 : Shape := ⟨2, ![3, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S200000x3 .f32) (main_arg1 : IVec S2x6400000 32) (main_arg2 : FVec F S3x16 .f32) (main_arg3 : FVec F S16 .f32) (main_arg4 : FVec F S16x3 .f32) (main_arg5 : FVec F S3 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_v13 main_v16
-- ==== Kernel.lean ====
abbrev S200000x3 : Shape := ⟨2, ![200000, 3]⟩
abbrev S2x6400000 : Shape := ⟨2, ![2, 6400000]⟩
abbrev S3x16 : Shape := ⟨2, ![3, 16]⟩
abbrev S16 : Shape := ⟨1, ![16]⟩
abbrev S16x3 : Shape := ⟨2, ![16, 3]⟩
abbrev S3 : Shape := ⟨1, ![3]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S1x200000 : Shape := ⟨2, ![1, 200000]⟩
abbrev S1x200064 : Shape := ⟨2, ![1, 200064]⟩
abbrev S16x1 : Shape := ⟨2, ![16, 1]⟩
abbrev S3x1 : Shape := ⟨2, ![3, 1]⟩
abbrev S3x200000 : Shape := ⟨2, ![3, 200000]⟩
abbrev S3x200064 : Shape := ⟨2, ![3, 200064]⟩
abbrev S16x200064 : Shape := ⟨2, ![16, 200064]⟩
abbrev S3x66688 : Shape := ⟨2, ![3, 66688]⟩
abbrev S1x66688 : Shape := ⟨2, ![1, 66688]⟩
abbrev S16x66688 : Shape := ⟨2, ![16, 66688]⟩
abbrev S16x200000 : Shape := ⟨2, ![16, 200000]⟩
abbrev S200000x16 : Shape := ⟨2, ![200000, 16]⟩
abbrev S6600000x16 : Shape := ⟨2, ![6600000, 16]⟩
abbrev S6600000x3 : Shape := ⟨2, ![6600000, 3]⟩

abbrev nBuf : Space → Nat
  | .hbm => 82
  | .vmem => 22
  | .smem => 0
  | _ => 0

abbrev bufTy : (tb : Table) → Fin (tcTables nBuf tb) → BufTy
  | .hbm, ⟨0, _⟩ => ⟨S200000x3, .f32⟩
  | .hbm, ⟨1, _⟩ => ⟨S2x6400000, .i32⟩
  | .hbm, ⟨2, _⟩ => ⟨S3x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S1x200000, .f32⟩
  | .hbm, ⟨28, _⟩ => ⟨S_, .i32⟩
  | .hbm, ⟨29, _⟩ => ⟨S_, .f32⟩
  | .hbm, ⟨30, _⟩ => ⟨S1x200064, .f32⟩
  | .hbm, ⟨31, _⟩ => ⟨S16x3, .f32⟩
  | .hbm, ⟨32, _⟩ => ⟨S3x16, .f32⟩
  | .hbm, ⟨33, _⟩ => ⟨S16x1, .f32⟩
  | .hbm, ⟨34, _⟩ => ⟨S3x1, .f32⟩
  | .hbm, ⟨35, _⟩ => ⟨S3x200000, .f32⟩
  | .hbm, ⟨36, _⟩ => ⟨S_, .i32⟩
  | .hbm, ⟨37, _⟩ => ⟨S_, .f32⟩
  | .hbm, ⟨38, _⟩ => ⟨S3x200064, .f32⟩
  | .hbm, ⟨39, _⟩ => ⟨S16x200064, .f32⟩
  | .hbm, ⟨40, _⟩ => ⟨S16x200000, .f32⟩
  | .hbm, ⟨41, _⟩ => ⟨S200000x16, .f32⟩
  | .hbm, ⟨42, _⟩ => ⟨S_, .i32⟩
  | .hbm, ⟨43, _⟩ => ⟨S6600000, .i32⟩
  | .hbm, ⟨44, _⟩ => ⟨S6600000, .i1⟩
  | .hbm, ⟨45, _⟩ => ⟨S_, .i32⟩
  | .hbm, ⟨46, _⟩ => ⟨S6600000, .i32⟩
  | .hbm, ⟨47, _⟩ => ⟨S6600000, .i32⟩
  | .hbm, ⟨48, _⟩ => ⟨S6600000, .i32⟩
  | .hbm, ⟨49, _⟩ => ⟨S6600000x1, .i32⟩
  | .hbm, ⟨50, _⟩ => ⟨S6600000x16, .f32⟩
  | .hbm, ⟨51, _⟩ => ⟨S_, .f32⟩
  | .hbm, ⟨52, _⟩ => ⟨S200000x16, .f32⟩
  | .hbm, ⟨53, _⟩ => ⟨S6600000x1, .i32⟩
  | .hbm, ⟨54, _⟩ => ⟨S200000x16, .f32⟩
  | .hbm, ⟨55, _⟩ => ⟨S16x200000, .f32⟩
  | .hbm, ⟨56, _⟩ => ⟨S_, .i32⟩
  | .hbm, ⟨57, _⟩ => ⟨S_, .f32⟩
  | .hbm, ⟨58, _⟩ => ⟨S16x200064, .f32⟩
  | .hbm, ⟨59, _⟩ => ⟨S3x200064, .f32⟩
  | .hbm, ⟨60, _⟩ => ⟨S3x200000, .f32⟩
  | .hbm, ⟨61, _⟩ => ⟨S200000x3, .f32⟩
  | .hbm, ⟨62, _⟩ => ⟨S_, .i32⟩
  | .hbm, ⟨63, _⟩ => ⟨S6600000, .i32⟩
  | .hbm, ⟨64, _⟩ => ⟨S6600000, .i1⟩
  | .hbm, ⟨65, _⟩ => ⟨S_, .i32⟩
  | .hbm, ⟨66, _⟩ => ⟨S6600000, .i32⟩
  | .hbm, ⟨67, _⟩ => ⟨S6600000, .i32⟩
  | .hbm, ⟨68, _⟩ => ⟨S6600000, .i32⟩
  | .hbm, ⟨69, _⟩ => ⟨S6600000x1, .i32⟩
  | .hbm, ⟨70, _⟩ => ⟨S6600000x3, .f32⟩
  | .hbm, ⟨71, _⟩ => ⟨S_, .f32⟩
  | .hbm, ⟨72, _⟩ => ⟨S200000x3, .f32⟩
  | .hbm, ⟨73, _⟩ => ⟨S6600000x1, .i32⟩
  | .hbm, ⟨74, _⟩ => ⟨S200000x3, .f32⟩
  | .hbm, ⟨75, _⟩ => ⟨S3x200000, .f32⟩
  | .hbm, ⟨76, _⟩ => ⟨S_, .i32⟩
  | .hbm, ⟨77, _⟩ => ⟨S_, .f32⟩
  | .hbm, ⟨78, _⟩ => ⟨S3x200064, .f32⟩
  | .hbm, ⟨79, _⟩ => ⟨S3x200064, .f32⟩
  | .hbm, ⟨80, _⟩ => ⟨S3x200000, .f32⟩
  | .hbm, ⟨81, _⟩ => ⟨S200000x3, .f32⟩
  | .local _ .vmem, ⟨0, _⟩ => ⟨S3x66688, .f32⟩
  | .local _ .vmem, ⟨1, _⟩ => ⟨S3x66688, .f32⟩
  | .local _ .vmem, ⟨2, _⟩ => ⟨S16x3, .f32⟩
  | .local _ .vmem, ⟨3, _⟩ => ⟨S1x66688, .f32⟩
  | .local _ .vmem, ⟨4, _⟩ => ⟨S1x66688, .f32⟩
  | .local _ .vmem, ⟨5, _⟩ => ⟨S16x66688, .f32⟩
  | .local _ .vmem, ⟨6, _⟩ => ⟨S16x66688, .f32⟩
  | .local _ .vmem, ⟨7, _⟩ => ⟨S16x66688, .f32⟩
  | .local _ .vmem, ⟨8, _⟩ => ⟨S16x66688, .f32⟩
  | .local _ .vmem, ⟨9, _⟩ => ⟨S1x66688, .f32⟩
  | .local _ .vmem, ⟨10, _⟩ => ⟨S1x66688, .f32⟩
  | .local _ .vmem, ⟨11, _⟩ => ⟨S16x1, .f32⟩
  | .local _ .vmem, ⟨12, _⟩ => ⟨S3x16, .f32⟩
  | .local _ .vmem, ⟨13, _⟩ => ⟨S3x66688, .f32⟩
  | .local _ .vmem, ⟨14, _⟩ => ⟨S3x66688, .f32⟩
  | .local _ .vmem, ⟨15, _⟩ => ⟨S3x66688, .f32⟩
  | .local _ .vmem, ⟨16, _⟩ => ⟨S3x66688, .f32⟩
  | .local _ .vmem, ⟨17, _⟩ => ⟨S1x66688, .f32⟩
  | .local _ .vmem, ⟨18, _⟩ => ⟨S1x66688, .f32⟩
  | .local _ .vmem, ⟨19, _⟩ => ⟨S3x1, .f32⟩
  | .local _ .vmem, ⟨20, _⟩ => ⟨S3x66688, .f32⟩
  | .local _ .vmem, ⟨21, _⟩ => ⟨S3x66688, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_call3_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_call4_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x66688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x66688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x66688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x66688 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x66688 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3x66688 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3x66688 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x66688 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3x66688 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S200000_S1x200000 : S200000.ShapeCasts S1x200000
  pads_S1x200000_S1x200064_000_0640 : S1x200000.Pads (![0, 0] : Fin 2 → Nat) ![0, 64] ![0, 0] S1x200064
  h_S_ : 0 < S_.numel
  transposes_S3x16_S16x3_1_0 : S3x16.Transposes [1, 0] S16x3
  transposes_S16x3_S3x16_1_0 : S16x3.Transposes [1, 0] S3x16
  shapeCasts_S16_S16x1 : S16.ShapeCasts S16x1
  shapeCasts_S3_S3x1 : S3.ShapeCasts S3x1
  transposes_S200000x3_S3x200000_1_0 : S200000x3.Transposes [1, 0] S3x200000
  pads_S3x200000_S3x200064_000_0640 : S3x200000.Pads (![0, 0] : Fin 2 → Nat) ![0, 64] ![0, 0] S3x200064
  inb_S3x66688_S3x66688_0_0 : ∀ a, (![0, 0] : Fin 2 → Nat) a + S3x66688.size a ≤ S3x66688.size a
  h_S3x66688 : 0 < S3x66688.numel
  shapeCasts_S3x66688_S3x66688 : S3x66688.ShapeCasts S3x66688
  bitsLt_bf16_f32 : FTy.bits .bf16 < FTy.bits .f32
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S1x66688_S1x66688_0_0 : ∀ a, (![0, 0] : Fin 2 → Nat) a + S1x66688.size a ≤ S1x66688.size a
  h_S1x66688 : 0 < S1x66688.numel
  shapeCasts_S1x66688_S1x66688 : S1x66688.ShapeCasts S1x66688
  broadcasts_S1x66688_S16x66688 : S1x66688.Broadcasts S16x66688
  inb_S16x66688_S16x66688_0_0 : ∀ a, (![0, 0] : Fin 2 → Nat) a + S16x66688.size a ≤ S16x66688.size a
  h_S16x66688 : 0 < S16x66688.numel
  slices_S16x200064_S16x200000_0_0 : S16x200064.Slices ![0, 0] S16x200000
  transposes_S16x200000_S200000x16_1_0 : S16x200000.Transposes [1, 0] S200000x16
  bcast_S_S200000x16 : S_.BroadcastsInDim S200000x16 (![] : Fin 0 → Fin S200000x16.rank)
  transposes_S200000x16_S16x200000_1_0 : S200000x16.Transposes [1, 0] S16x200000
  pads_S16x200000_S16x200064_000_0640 : S16x200000.Pads (![0, 0] : Fin 2 → Nat) ![0, 64] ![0, 0] S16x200064
  shapeCasts_S16x66688_S16x66688 : S16x66688.ShapeCasts S16x66688
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x66688 : S16x1.Broadcasts S16x66688
  inb_S3x16_S3x16_0_0 : ∀ a, (![0, 0] : Fin 2 → Nat) a + S3x16.size a ≤ S3x16.size a
  h_S3x16 : 0 < S3x16.numel
  shapeCasts_S3x16_S3x16 : S3x16.ShapeCasts S3x16
  broadcasts_S1x66688_S3x66688 : S1x66688.Broadcasts S3x66688
  slices_S3x200064_S3x200000_0_0 : S3x200064.Slices ![0, 0] S3x200000
  transposes_S3x200000_S200000x3_1_0 : S3x200000.Transposes [1, 0] S200000x3
  bcast_S_S200000x3 : S_.BroadcastsInDim S200000x3 (![] : Fin 0 → Fin S200000x3.rank)
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x66688 : S3x1.Broadcasts S3x66688
  scatter_S200000_S6600000x1_S6600000_n_0_0_1_wf : ScatterDims.WF S200000 S6600000x1 S6600000 [] [0] [0] 1
  dot_S16x3_S3x66688_S16x66688_1_0_0_1_n_n_wf : DotDims.WF S16x3 S3x66688 S16x66688 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S3x16_S16x66688_S3x66688_1_0_0_1_n_n_wf : DotDims.WF S3x16 S16x66688 S3x66688 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x66688.size a ≤ S3x200064.size a
  hwx0_0 : ∀ i : grid0.Coords, EltTy.bits .f32 = 32 ∨ (Rect.block (s := S3x200064) S3x66688.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x3.size a ≤ S16x3.size a
  hwx0_1 : ∀ i : grid0.Coords, EltTy.bits .f32 = 32 ∨ (Rect.block (s := S16x3) S16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x66688.size a ≤ S1x200064.size a
  hwx0_2 : ∀ i : grid0.Coords, EltTy.bits .f32 = 32 ∨ (Rect.block (s := S1x200064) S1x66688.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x66688.size a ≤ S16x200064.size a
  hwx0_3 : ∀ i : grid0.Coords, EltTy.bits .f32 = 32 ∨ (Rect.block (s := S16x200064) S16x66688.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x66688.size a ≤ S16x200064.size a
  hwx1_0 : ∀ i : grid1.Coords, EltTy.bits .f32 = 32 ∨ (Rect.block (s := S16x200064) S16x66688.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x66688.size a ≤ S1x200064.size a
  hwx1_1 : ∀ i : grid1.Coords, EltTy.bits .f32 = 32 ∨ (Rect.block (s := S1x200064) S1x66688.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x16.size a ≤ S3x16.size a
  hwx1_3 : ∀ i : grid1.Coords, EltTy.bits .f32 = 32 ∨ (Rect.block (s := S3x16) S3x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x66688.size a ≤ S3x200064.size a
  hwx1_4 : ∀ i : grid1.Coords, EltTy.bits .f32 = 32 ∨ (Rect.block (s := S3x200064) S3x66688.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x66688.size a ≤ S3x200064.size a
  hwx2_0 : ∀ i : grid2.Coords, EltTy.bits .f32 = 32 ∨ (Rect.block (s := S3x200064) S3x66688.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x66688.size a ≤ S1x200064.size a
  hwx2_1 : ∀ i : grid2.Coords, EltTy.bits .f32 = 32 ∨ (Rect.block (s := S1x200064) S1x66688.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x1.size a ≤ S3x1.size a
  hwx2_2 : ∀ i : grid2.Coords, EltTy.bits .f32 = 32 ∨ (Rect.block (s := S3x1) S3x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x66688.size a ≤ S3x200064.size a
  hwx2_3 : ∀ i : grid2.Coords, EltTy.bits .f32 = 32 ∨ (Rect.block (s := S3x200064) S3x66688.size (cc2_transform_3 i) (hinb2_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S16x3_S3x66688_S16x66688_1_0_0_1_n_n : DotDims S16x3 S3x66688 S16x66688 where
  lhsContracting := [1]
  rhsContracting := [0]
  lhsNonContracting := [0]
  rhsNonContracting := [1]
  lhsBatch := []
  rhsBatch := []
  wf := dot_S16x3_S3x66688_S16x66688_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S3x16_S16x66688_S3x66688_1_0_0_1_n_n : DotDims S3x16 S16x66688 S3x66688 where
  lhsContracting := [1]
  rhsContracting := [0]
  lhsNonContracting := [0]
  rhsNonContracting := [1]
  lhsBatch := []
  rhsBatch := []
  wf := dot_S3x16_S16x66688_S3x66688_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

abbrev win0_0 : Pipeline.Window sig grid0 :=
  Pipeline.Window.ofSpec (Memref.whole main_v22) S3x66688.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S16x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x66688.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S16x66688.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S16x66688.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x66688.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S3x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S3x66688.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S3x66688.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x66688.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S3x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S3x66688.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x3 : Shape := ⟨2, ![200000, 3]⟩
abbrev S2x6400000 : Shape := ⟨2, ![2, 6400000]⟩
abbrev S3x16 : Shape := ⟨2, ![3, 16]⟩
abbrev S16 : Shape := ⟨1, ![16]⟩
abbrev S16x3 : Shape := ⟨2, ![16, 3]⟩
abbrev S3 : Shape := ⟨1, ![3]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S6600000x3 : Shape := ⟨2, ![6600000, 3]⟩
abbrev S1x3 : Shape := ⟨2, ![1, 3]⟩

abbrev nBuf : Space → Nat
  | .hbm => 125
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S2x6400000, .i32⟩
  | .hbm, ⟨2, _⟩ => ⟨S3x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x1, .f32⟩
  | .hbm, ⟨57, _⟩ => ⟨S6600000x16, .f32⟩
  | .hbm, ⟨58, _⟩ => ⟨S6600000x16, .f32⟩
  | .hbm, ⟨59, _⟩ => ⟨S_, .f32⟩
  | .hbm, ⟨60, _⟩ => ⟨S200000x16, .f32⟩
  | .hbm, ⟨61, _⟩ => ⟨S6600000x1, .i32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x16, .f32⟩
  | .hbm, ⟨66, _⟩ => ⟨S_, .f32⟩
  | .hbm, ⟨67, _⟩ => ⟨S200000x16, .f32⟩
  | .hbm, ⟨68, _⟩ => ⟨S200000x16, .f32⟩
  | .hbm, ⟨69, _⟩ => ⟨S200000, .i32⟩
  | .hbm, ⟨70, _⟩ => ⟨S6600000, .i32⟩
  | .hbm, ⟨71, _⟩ => ⟨S6600000, .i32⟩
  | .hbm, ⟨72, _⟩ => ⟨S_, .f32⟩
  | .hbm, ⟨73, _⟩ => ⟨S6600000, .f32⟩
  | .hbm, ⟨74, _⟩ => ⟨S_, .f32⟩
  | .hbm, ⟨75, _⟩ => ⟨S200000, .f32⟩
  | .hbm, ⟨76, _⟩ => ⟨S6600000x1, .i32⟩
  | .hbm, ⟨77, _⟩ => ⟨S200000, .f32⟩
  | .hbm, ⟨78, _⟩ => ⟨S_, .f32⟩
  | .hbm, ⟨79, _⟩ => ⟨S200000, .f32⟩
  | .hbm, ⟨80, _⟩ => ⟨S200000, .i1⟩
  | .hbm, ⟨81, _⟩ => ⟨S200000, .f32⟩
  | .hbm, ⟨82, _⟩ => ⟨S_, .f32⟩
  | .hbm, ⟨83, _⟩ => ⟨S_, .f32⟩
  | .hbm, ⟨84, _⟩ => ⟨S200000, .f32⟩
  | .hbm, ⟨85, _⟩ => ⟨S200000, .f32⟩
  | .hbm, ⟨86, _⟩ => ⟨S_, .i32⟩
  | .hbm, ⟨87, _⟩ => ⟨S6600000, .i32⟩
  | .hbm, ⟨88, _⟩ => ⟨S6600000, .i1⟩
  | .hbm, ⟨89, _⟩ => ⟨S_, .i32⟩
  | .hbm, ⟨90, _⟩ => ⟨S6600000, .i32⟩
  | .hbm, ⟨91, _⟩ => ⟨S6600000, .i32⟩
  | .hbm, ⟨92, _⟩ => ⟨S6600000, .i32⟩
  | .hbm, ⟨93, _⟩ => ⟨S6600000x1, .i32⟩
  | .hbm, ⟨94, _⟩ => ⟨S6600000, .f32⟩
  | .hbm, ⟨95, _⟩ => ⟨S_, .i32⟩
  | .hbm, ⟨96, _⟩ => ⟨S6600000, .i32⟩
  | .hbm, ⟨97, _⟩ => ⟨S6600000, .i1⟩
  | .hbm, ⟨98, _⟩ => ⟨S_, .i32⟩
  | .hbm, ⟨99, _⟩ => ⟨S6600000, .i32⟩
  | .hbm, ⟨100, _⟩ => ⟨S6600000, .i32⟩
  | .hbm, ⟨101, _⟩ => ⟨S6600000, .i32⟩
  | .hbm, ⟨102, _⟩ => ⟨S6600000x1, .i32⟩
  | .hbm, ⟨103, _⟩ => ⟨S6600000, .f32⟩
  | .hbm, ⟨104, _⟩ => ⟨S6600000, .f32⟩
  | .hbm, ⟨105, _⟩ => ⟨S200000x3, .f32⟩
  | .hbm, ⟨106, _⟩ => ⟨S_, .i32⟩
  | .hbm, ⟨107, _⟩ => ⟨S6600000, .i32⟩
  | .hbm, ⟨108, _⟩ => ⟨S6600000, .i1⟩
  | .hbm, ⟨109, _⟩ => ⟨S_, .i32⟩
  | .hbm, ⟨110, _⟩ => ⟨S6600000, .i32⟩
  | .hbm, ⟨111, _⟩ => ⟨S6600000, .i32⟩
  | .hbm, ⟨112, _⟩ => ⟨S6600000, .i32⟩
  | .hbm, ⟨113, _⟩ => ⟨S6600000x1, .i32⟩
  | .hbm, ⟨114, _⟩ => ⟨S6600000x3, .f32⟩
  | .hbm, ⟨115, _⟩ => ⟨S6600000x1, .f32⟩
  | .hbm, ⟨116, _⟩ => ⟨S6600000x3, .f32⟩
  | .hbm, ⟨117, _⟩ => ⟨S6600000x3, .f32⟩
  | .hbm, ⟨118, _⟩ => ⟨S_, .f32⟩
  | .hbm, ⟨119, _⟩ => ⟨S200000x3, .f32⟩
  | .hbm, ⟨120, _⟩ => ⟨S6600000x1, .i32⟩
  | .hbm, ⟨121, _⟩ => ⟨S200000x3, .f32⟩
  | .hbm, ⟨122, _⟩ => ⟨S1x3, .f32⟩
  | .hbm, ⟨123, _⟩ => ⟨S200000x3, .f32⟩
  | .hbm, ⟨124, _⟩ => ⟨S200000x3, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x3_S3x16_S200000x16_1_0_0_1_n_n_wf : DotDims.WF S200000x3 S3x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x3_S200000x3_1_0_0_1_n_n_wf : DotDims.WF S200000x16 S16x3 S200000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x3_S3x16_S200000x16_1_0_0_1_n_n : DotDims S200000x3 S3x16 S200000x16 where
  lhsContracting := [1]
  rhsContracting := [0]
  lhsNonContracting := [0]
  rhsNonContracting := [1]
  lhsBatch := []
  rhsBatch := []
  wf := dot_S200000x3_S3x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x3_S200000x3_1_0_0_1_n_n : DotDims S200000x16 S16x3 S200000x3 where
  lhsContracting := [1]
  rhsContracting := [0]
  lhsNonContracting := [0]
  rhsNonContracting := [1]
  lhsBatch := []
  rhsBatch := []
  wf := dot_S200000x16_S16x3_S200000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

class Facts : Prop extends Facts₀ where

variable [Facts]
-- ==== Proof.KernelRun.lean ====
/-
  The kernel program's run, with its result named.

  The program is three kernel regions among stretches of host operations. Its contents at every boundary are a fold
  from the launch memory: a host stretch applies its operations, a region leaves its arrays at what its write-backs
  leave and every other buffer as entered. Every weakly fair execution from a memory with zero counters terminates
  with every unscoped buffer at the last boundary's contents; read at the result buffer that is the result, and read
  at an argument it is the argument as launched (no stretch and no region writes one).
-/
import proofs.«177786_j29454885716720_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of the program from `m` terminates, nothing faulting, with the result buffer at the
    last boundary's contents `W14` and every argument array as launched. -/
theorem run_result : θ_run defs (onTc (τ := τ) (main (F := F))) ⟨m, fun _ => 0, ρ⟩ (fun r => ∀ c : Dev nD,
      r.2.mem ((c.tc : Thread nD τ).loc main_v55) = W14 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v55 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.RunValue

end
-- ==== Proof.KernelHost.lean ====
/-
  The kernel program's host side: what each region's input arrays hold, as pure terms of the arguments.

  Before the first region the host computes, from the edge array, the source and destination index of every edge
  (the given edges followed by one self loop per node), the degree of every node (the number of edges sent to it)
  and its guarded inverse square root `dinv`, laid out as one padded row; and it lays out the other arguments
  (transposes, a padded transpose, columns). Between two regions it takes the first region's output, drops the
  padding columns, transposes, gathers the row of every edge's source, sums the gathered rows into every edge's
  destination, and transposes and pads the sums back (`hop16`, `hop3`). After the last region it drops the padding
  columns and transposes. A buffer that a stretch of host operations does not write, and a region's input array,
  keep their contents, so each region finds the index arrays and the `dinv` row as first computed.
-/
import proofs.«177786_j29454885716720_1_alg».proof.Proof.Gen.KernelIdeal.Frame
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo
open Idealize.ShloMosaic.Pipeline (Dat)
open Cert.KernelIdeal Cert.KernelIdeal.Gen

/-- Two lines of operations applied one after the other are their concatenation applied once. -/
theorem after_append {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => simp only [List.cons_append, StableHlo.after_cons, ih]

/-! ## The pure terms -/

abbrev I32 (s : Shape) : Type := IVec s 32
abbrev F32 (s : Shape) : Type := FVec Ideal s .f32

/-- Every edge's source: row 0 of the edge array, then the self loops. -/
def srcIdx (e1 : I32 S2x6400000) : I32 S6600000 :=
  concatenate S6600000 0 [⟨S6400000, shapeCast _ (extractStridedSlice S1x6400000 ![0, 0] e1 slices_S2x6400000_S1x6400000_0_0) shapeCasts_S1x6400000_S6400000⟩, ⟨S200000, iotaInDim S200000 32 0⟩] concatenates_S6400000_S200000_S6600000_d0

/-- Every edge's destination: row 1 of the edge array, then the self loops. -/
def dstIdx (e1 : I32 S2x6400000) : I32 S6600000 :=
  concatenate S6600000 0 [⟨S6400000, shapeCast _ (extractStridedSlice S1x6400000 ![1, 0] e1 slices_S2x6400000_S1x6400000_1_0) shapeCasts_S1x6400000_S6400000⟩, ⟨S200000, iotaInDim S200000 32 0⟩] concatenates_S6400000_S200000_S6600000_d0

/-- An index vector as the one-column array a gather or a scatter takes. -/
def colIdx (d : I32 S6600000) : I32 S6600000x1 := broadcastInDim S6600000x1 ![0] bcast_S6600000_S6600000x1_0 d

/-- An index vector with its negative entries wrapped (the node count added), as a one-column array. -/
def wrapIdx (s : I32 S6600000) : I32 S6600000x1 :=
  broadcastInDim S6600000x1 ![0] bcast_S6600000_S6600000x1_0
    (select (cmpi .slt s (broadcastInDim S6600000 ![] bcast_S_S6600000 (constantI S_ 32 0#32)))
      (addi s (broadcastInDim S6600000 ![] bcast_S_S6600000 (constantI S_ 32 200000#32))) s)

/-- Every node's degree: one per edge, summed into the edge's destination. -/
def degV (e1 : I32 S2x6400000) : F32 S200000 :=
  Host.scatterAdd scatter_S200000_S6600000x1_S6600000_n_0_0_1
    (broadcastInDim S200000 ![] bcast_S_S200000 (constant (F := Ideal) S_ .f32 0x00000000#32))
    (colIdx (dstIdx e1))
    (broadcastInDim S6600000 ![] bcast_S_S6600000 (constant (F := Ideal) S_ .f32 0x3F800000#32))

/-- Every node's guarded inverse square root of its degree. -/
def dinvV (e1 : I32 S2x6400000) : F32 S200000 :=
  select (cmpf (F := Ideal) .ogt (degV e1) (broadcastInDim S200000 ![] bcast_S_S200000 (constant (F := Ideal) S_ .f32 0x00000000#32)))
    (Host.rsqrt (F := Ideal) (degV e1))
    (broadcastInDim S200000 ![] bcast_S_S200000 (id (constant (F := Ideal) S_ .f32 0x00000000#32)))

/-- `dinv` as one row, padded with zeros to the regions' column count. -/
def dinvPad (e1 : I32 S2x6400000) : F32 S1x200064 :=
  pad S1x200064 ![0, 0] ![0, 64] ![0, 0] (shapeCast S1x200000 (dinvV e1) shapeCasts_S200000_S1x200000)
    (sitofp (F := Ideal) .f32 (constantI S_ 32 0#32)) pads_S1x200000_S1x200064_000_0640 h_S_

/-- The node features transposed and padded with zero columns. -/
def featPad (x : F32 S200000x3) : F32 S3x200064 :=
  pad S3x200064 ![0, 0] ![0, 64] ![0, 0] (transpose S3x200000 [1, 0] x transposes_S200000x3_S3x200000_1_0)
    (sitofp (F := Ideal) .f32 (constantI S_ 32 0#32)) pads_S3x200000_S3x200064_000_0640 h_S_

/-- Between the first two regions, before the padding: drop the padding columns, transpose, gather every edge's
    source row, sum into every edge's destination row, transpose back. -/
def hopCore16 (prev : F32 S16x200064) (s d : I32 S6600000) : F32 S16x200000 :=
    (transpose S16x200000 [1, 0]
      (Host.scatterAdd scatter_S200000x16_S6600000x1_S6600000x16_1_0_0_1
        (broadcastInDim S200000x16 ![] bcast_S_S200000x16 (constant (F := Ideal) S_ .f32 0x00000000#32))
        (colIdx d)
        (Host.gather gather_S200000x16_S6600000x1_S6600000x16_1_0_n_n_0_1_116
          (transpose S200000x16 [1, 0] (extractStridedSlice S16x200000 ![0, 0] prev slices_S16x200064_S16x200000_0_0) transposes_S16x200000_S200000x16_1_0)
          (wrapIdx s)))
      transposes_S200000x16_S16x200000_1_0)

/-- Between the first two regions: the core, padded with zero columns. -/
def hop16 (prev : F32 S16x200064) (s d : I32 S6600000) : F32 S16x200064 :=
  pad S16x200064 ![0, 0] ![0, 64] ![0, 0] (hopCore16 prev s d)
    (sitofp (F := Ideal) .f32 (constantI S_ 32 0#32)) pads_S16x200000_S16x200064_000_0640 h_S_

/-- Between the last two regions, before the padding: the same over three feature rows. -/
def hopCore3 (prev : F32 S3x200064) (s d : I32 S6600000) : F32 S3x200000 :=
    (transpose S3x200000 [1, 0]
      (Host.scatterAdd scatter_S200000x3_S6600000x1_S6600000x3_1_0_0_1
        (broadcastInDim S200000x3 ![] bcast_S_S200000x3 (constant (F := Ideal) S_ .f32 0x00000000#32))
        (colIdx d)
        (Host.gather gather_S200000x3_S6600000x1_S6600000x3_1_0_n_n_0_1_13
          (transpose S200000x3 [1, 0] (extractStridedSlice S3x200000 ![0, 0] prev slices_S3x200064_S3x200000_0_0) transposes_S3x200000_S200000x3_1_0)
          (wrapIdx s)))
      transposes_S200000x3_S3x200000_1_0)

/-- Between the last two regions: the core, padded with zero columns. -/
def hop3 (prev : F32 S3x200064) (s d : I32 S6600000) : F32 S3x200064 :=
  pad S3x200064 ![0, 0] ![0, 64] ![0, 0] (hopCore3 prev s d)
    (sitofp (F := Ideal) .f32 (constantI S_ 32 0#32)) pads_S3x200000_S3x200064_000_0640 h_S_

/-- After the last region: drop the padding columns and transpose. -/
def unpadT (o : F32 S3x200064) : F32 S200000x3 :=
  transpose S200000x3 [1, 0] (extractStridedSlice S3x200000 ![0, 0] o slices_S3x200064_S3x200000_0_0) transposes_S3x200000_S200000x3_1_0

/-! ## The contents at the regions' entries -/

variable (m : (ℓ : Loc nD τ sig) → Buf (Elt Ideal) ℓ) (ρ : Dev nD → PrngReg) (c : Dev nD)

/-- The contents at the first region's entry, the six stretches before it applied as one line. -/
theorem W6_flat : W6 m ρ c = StableHlo.after (hostOps0 ++ hostOps0_1 ++ hostOps0_2 ++ hostOps0_3 ++ hostOps0_4 ++ hostOps0_5) (W0 m ρ c) := by
  simp only [after_append]

/-- The contents at the second region's entry from the first region's exit. -/
theorem W9_flat : W9 m ρ c = StableHlo.after (hostOps1 ++ hostOps1_1) (W7 m ρ c) := by
  simp only [after_append]

/-- The contents at the third region's entry from the second region's exit. -/
theorem W12_flat : W12 m ρ c = StableHlo.after (hostOps2 ++ hostOps2_1) (W10 m ρ c) := by
  simp only [after_append]

local macro "read_pre" : tactic => `(tactic| (
  rw [W6_flat]
  simp only [hostOps0, hostOps0_1, hostOps0_2, hostOps0_3, hostOps0_4, hostOps0_5, List.cons_append, List.nil_append]
  after_results_simp <;> rfl))

set_option maxHeartbeats 8000000 in
theorem W6_v5 : W6 m ρ c (Proc.devRef .tc main_v5) = srcIdx (m ((c : Thread nD τ).loc main_arg1)) := by
  unfold srcIdx; read_pre
set_option maxHeartbeats 8000000 in
theorem W6_v6 : W6 m ρ c (Proc.devRef .tc main_v6) = dstIdx (m ((c : Thread nD τ).loc main_arg1)) := by
  unfold dstIdx; read_pre
/-! The `dinv` row, stretch by stretch: the first stretch's comparison, inverse square root and zero; their
    selection; the cast to a row and the padding; the last two stretches do not write it. -/

set_option maxHeartbeats 8000000 in
theorem W1_v12 : W1 m ρ c (Proc.devRef .tc main_v12)
    = cmpf (F := Ideal) .ogt (degV (m ((c : Thread nD τ).loc main_arg1))) (broadcastInDim S200000 ![] bcast_S_S200000 (constant (F := Ideal) S_ .f32 0x00000000#32)) := by
  show StableHlo.after hostOps0 (W0 m ρ c) _ = _
  unfold degV colIdx dstIdx
  simp only [hostOps0]
  after_results_simp <;> rfl
set_option maxHeartbeats 8000000 in
theorem W1_v13 : W1 m ρ c (Proc.devRef .tc main_v13) = Host.rsqrt (F := Ideal) (degV (m ((c : Thread nD τ).loc main_arg1))) := by
  show StableHlo.after hostOps0 (W0 m ρ c) _ = _
  unfold degV colIdx dstIdx
  simp only [hostOps0]
  after_results_simp <;> rfl
set_option maxHeartbeats 8000000 in
theorem W1_cst2 : W1 m ρ c (Proc.devRef .tc main_cst_2) = constant (F := Ideal) S_ .f32 0x00000000#32 := by
  show StableHlo.after hostOps0 (W0 m ρ c) _ = _
  simp only [hostOps0]
  after_results_simp <;> rfl
set_option maxHeartbeats 4000000 in
theorem W2_v14 : W2 m ρ c (Proc.devRef .tc main_v14) = dinvV (m ((c : Thread nD τ).loc main_arg1)) := by
  show StableHlo.after hostOps0_1 (W1 m ρ c) _ = _
  unfold dinvV
  rw [← W1_v12 m ρ c, ← W1_v13 m ρ c, ← W1_cst2 m ρ c]
  generalize W1 m ρ c = V
  simp only [hostOps0_1]
  after_results <;> rfl
set_option maxHeartbeats 4000000 in
theorem W4_v16 : W4 m ρ c (Proc.devRef .tc main_v16) = dinvPad (m ((c : Thread nD τ).loc main_arg1)) := by
  show StableHlo.after hostOps0_3 (StableHlo.after hostOps0_2 (W2 m ρ c)) _ = _
  rw [← after_append]
  unfold dinvPad
  rw [← W2_v14 m ρ c]
  generalize W2 m ρ c = V
  simp only [hostOps0_2, hostOps0_3, List.cons_append, List.nil_append]
  after_results <;> rfl
theorem W6_v16 : W6 m ρ c (Proc.devRef .tc main_v16) = dinvPad (m ((c : Thread nD τ).loc main_arg1)) := by
  refine Eq.trans ?_ (W4_v16 m ρ c)
  show StableHlo.after hostOps0_5 (StableHlo.after hostOps0_4 (W4 m ρ c)) _ = _
  rw [← after_append]
  refine StableHlo.after_of_forall_not_mem _ _ (List.forall_iff_forall_mem.mp ?_)
  simp only [hostOps0_4, hostOps0_5, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
set_option maxHeartbeats 8000000 in
theorem W6_v17 : W6 m ρ c (Proc.devRef .tc main_v17) = transpose S16x3 [1, 0] (m ((c : Thread nD τ).loc main_arg2)) transposes_S3x16_S16x3_1_0 := by
  read_pre
set_option maxHeartbeats 8000000 in
theorem W6_v18 : W6 m ρ c (Proc.devRef .tc main_v18) = transpose S3x16 [1, 0] (m ((c : Thread nD τ).loc main_arg4)) transposes_S16x3_S3x16_1_0 := by
  read_pre
set_option maxHeartbeats 8000000 in
theorem W6_v19 : W6 m ρ c (Proc.devRef .tc main_v19) = shapeCast S16x1 (m ((c : Thread nD τ).loc main_arg3)) shapeCasts_S16_S16x1 := by
  read_pre
set_option maxHeartbeats 8000000 in
theorem W6_v20 : W6 m ρ c (Proc.devRef .tc main_v20) = shapeCast S3x1 (m ((c : Thread nD τ).loc main_arg5)) shapeCasts_S3_S3x1 := by
  read_pre
set_option maxHeartbeats 8000000 in
theorem W6_v22 : W6 m ρ c (Proc.devRef .tc main_v22) = featPad (m ((c : Thread nD τ).loc main_arg0)) := by
  unfold featPad; read_pre

end Cert.KernelIdeal.HostValue

end
-- ==== Proof.KernelChain.lean ====
/-
  The kernel program's fold, read at the buffers the regions and the result use.

  A stretch of host operations leaves a buffer it does not write as it was. A region leaves every buffer that is
  not one of its arrays as it was, and each of its INPUT arrays too (only an output window is written back). So the
  index arrays, the `dinv` row, the transposed weights and the bias columns, all computed before the first region,
  are what every later region and stretch finds. Between regions the previous region's output goes through the hop
  (un-pad, transpose, gather by source, sum by destination, transpose, pad); after the last region the output is
  un-padded and transposed into the result.
-/
import proofs.«177786_j29454885716720_1_alg».proof.Proof.KernelHost
import Idealize.ShloMosaic.Lib.Pipeline.Value

set_option maxRecDepth 16384

noncomputable section

namespace Cert.KernelIdeal.HostValue

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

attribute [local irreducible] Host.scatterAdd Host.gather

/-- No operation of the line writes the buffer: each operation's written buffers are singletons of other names. -/
local macro "unwritten" : tactic => `(tactic| (
  refine StableHlo.after_of_forall_not_mem _ _ (List.forall_iff_forall_mem.mp ?_)
  simp only [hostOps1, hostOps1_1, hostOps2, hostOps2_1, hostOps3, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Through the first region -/

/-- An input array of the first region leaves it as it entered. -/
theorem W7_in (w : Fin cfg0.W) (hin : (cfg0.win w).isOut = false) :
    W7 m ρ c (Proc.devRef .tc (Pipeline.arrRef spec0 w)) = W6 m ρ c (Proc.devRef .tc (Pipeline.arrRef spec0 w)) := by
  rw [W7_arr, Dat.arrAt_in _ w hin, A_eq0]

theorem W7_v5 : W7 m ρ c (Proc.devRef .tc main_v5) = srcIdx (m ((c : Thread nD τ).loc main_arg1)) :=
  (W7_of_ne m ρ c main_v5 (by decide)).trans (W6_v5 m ρ c)
theorem W7_v6 : W7 m ρ c (Proc.devRef .tc main_v6) = dstIdx (m ((c : Thread nD τ).loc main_arg1)) :=
  (W7_of_ne m ρ c main_v6 (by decide)).trans (W6_v6 m ρ c)
theorem W7_v18 : W7 m ρ c (Proc.devRef .tc main_v18) = transpose S3x16 [1, 0] (m ((c : Thread nD τ).loc main_arg4)) transposes_S16x3_S3x16_1_0 :=
  (W7_of_ne m ρ c main_v18 (by decide)).trans (W6_v18 m ρ c)
theorem W7_v19 : W7 m ρ c (Proc.devRef .tc main_v19) = shapeCast S16x1 (m ((c : Thread nD τ).loc main_arg3)) shapeCasts_S16_S16x1 :=
  (W7_of_ne m ρ c main_v19 (by decide)).trans (W6_v19 m ρ c)
theorem W7_v20 : W7 m ρ c (Proc.devRef .tc main_v20) = shapeCast S3x1 (m ((c : Thread nD τ).loc main_arg5)) shapeCasts_S3_S3x1 :=
  (W7_of_ne m ρ c main_v20 (by decide)).trans (W6_v20 m ρ c)
theorem W7_v16 : W7 m ρ c (Proc.devRef .tc main_v16) = dinvPad (m ((c : Thread nD τ).loc main_arg1)) :=
  (W7_in m ρ c 2 rfl).trans (W6_v16 m ρ c)
/-- The first region's output array after the region. -/
theorem W7_v23 : W7 m ρ c (Proc.devRef .tc main_v23) = (dat0 (V6 m ρ) c).arrAt 3 cfg0.N := W7_arr m ρ c 3

/-! ## To the second region's entry and through it -/

set_option maxHeartbeats 8000000 in
theorem W8_v36 : W8 m ρ c (Proc.devRef .tc main_v36)
    = hopCore16 ((dat0 (V6 m ρ) c).arrAt 3 cfg0.N) (srcIdx (m ((c : Thread nD τ).loc main_arg1))) (dstIdx (m ((c : Thread nD τ).loc main_arg1))) := by
  show StableHlo.after hostOps1 (W7 m ρ c) _ = _
  unfold hopCore16 wrapIdx colIdx
  rw [← W7_v23 m ρ c, ← W7_v5 m ρ c, ← W7_v6 m ρ c]
  generalize W7 m ρ c = V
  simp only [hostOps1]
  after_results_simp <;> rfl

set_option maxHeartbeats 8000000 in
theorem W8_c7 : W8 m ρ c (Proc.devRef .tc main_c_7) = (constantI S_ 32 0#32 : IVec S_ 32) := by
  show StableHlo.after hostOps1 (W7 m ρ c) _ = _
  generalize W7 m ρ c = V
  simp only [hostOps1]
  after_results_simp <;> rfl

set_option maxHeartbeats 4000000 in
theorem W9_v37 : W9 m ρ c (Proc.devRef .tc main_v37)
    = hop16 ((dat0 (V6 m ρ) c).arrAt 3 cfg0.N) (srcIdx (m ((c : Thread nD τ).loc main_arg1))) (dstIdx (m ((c : Thread nD τ).loc main_arg1))) := by
  show StableHlo.after hostOps1_1 (W8 m ρ c) _ = _
  unfold hop16
  rw [← W8_v36 m ρ c, ← W8_c7 m ρ c]
  generalize W8 m ρ c = V
  simp only [hostOps1_1]
  after_results <;> rfl

theorem W9_v5 : W9 m ρ c (Proc.devRef .tc main_v5) = srcIdx (m ((c : Thread nD τ).loc main_arg1)) := by
  rw [W9_flat]; exact (by unwritten : _ = W7 m ρ c (Proc.devRef .tc main_v5)).trans (W7_v5 m ρ c)
theorem W9_v6 : W9 m ρ c (Proc.devRef .tc main_v6) = dstIdx (m ((c : Thread nD τ).loc main_arg1)) := by
  rw [W9_flat]; exact (by unwritten : _ = W7 m ρ c (Proc.devRef .tc main_v6)).trans (W7_v6 m ρ c)
theorem W9_v16 : W9 m ρ c (Proc.devRef .tc main_v16) = dinvPad (m ((c : Thread nD τ).loc main_arg1)) := by
  rw [W9_flat]; exact (by unwritten : _ = W7 m ρ c (Proc.devRef .tc main_v16)).trans (W7_v16 m ρ c)
theorem W9_v18 : W9 m ρ c (Proc.devRef .tc main_v18) = transpose S3x16 [1, 0] (m ((c : Thread nD τ).loc main_arg4)) transposes_S16x3_S3x16_1_0 := by
  rw [W9_flat]; exact (by unwritten : _ = W7 m ρ c (Proc.devRef .tc main_v18)).trans (W7_v18 m ρ c)
theorem W9_v19 : W9 m ρ c (Proc.devRef .tc main_v19) = shapeCast S16x1 (m ((c : Thread nD τ).loc main_arg3)) shapeCasts_S16_S16x1 := by
  rw [W9_flat]; exact (by unwritten : _ = W7 m ρ c (Proc.devRef .tc main_v19)).trans (W7_v19 m ρ c)
theorem W9_v20 : W9 m ρ c (Proc.devRef .tc main_v20) = shapeCast S3x1 (m ((c : Thread nD τ).loc main_arg5)) shapeCasts_S3_S3x1 := by
  rw [W9_flat]; exact (by unwritten : _ = W7 m ρ c (Proc.devRef .tc main_v20)).trans (W7_v20 m ρ c)

/-- An input array of the second region leaves it as it entered. -/
theorem W10_in (w : Fin cfg1.W) (hin : (cfg1.win w).isOut = false) :
    W10 m ρ c (Proc.devRef .tc (Pipeline.arrRef spec1 w)) = W9 m ρ c (Proc.devRef .tc (Pipeline.arrRef spec1 w)) := by
  rw [W10_arr, Dat.arrAt_in _ w hin, A_eq1]

theorem W10_v5 : W10 m ρ c (Proc.devRef .tc main_v5) = srcIdx (m ((c : Thread nD τ).loc main_arg1)) :=
  (W10_of_ne m ρ c main_v5 (by decide)).trans (W9_v5 m ρ c)
theorem W10_v6 : W10 m ρ c (Proc.devRef .tc main_v6) = dstIdx (m ((c : Thread nD τ).loc main_arg1)) :=
  (W10_of_ne m ρ c main_v6 (by decide)).trans (W9_v6 m ρ c)
theorem W10_v20 : W10 m ρ c (Proc.devRef .tc main_v20) = shapeCast S3x1 (m ((c : Thread nD τ).loc main_arg5)) shapeCasts_S3_S3x1 :=
  (W10_of_ne m ρ c main_v20 (by decide)).trans (W9_v20 m ρ c)
theorem W10_v16 : W10 m ρ c (Proc.devRef .tc main_v16) = dinvPad (m ((c : Thread nD τ).loc main_arg1)) :=
  (W10_in m ρ c 1 rfl).trans (W9_v16 m ρ c)
/-- The second region's output array after the region. -/
theorem W10_v38 : W10 m ρ c (Proc.devRef .tc main_v38) = (dat1 (V9 m ρ) c).arrAt 4 cfg1.N := W10_arr m ρ c 4

/-! ## To the third region's entry, through it, and to the result -/

set_option maxHeartbeats 8000000 in
theorem W11_v51 : W11 m ρ c (Proc.devRef .tc main_v51)
    = hopCore3 ((dat1 (V9 m ρ) c).arrAt 4 cfg1.N) (srcIdx (m ((c : Thread nD τ).loc main_arg1))) (dstIdx (m ((c : Thread nD τ).loc main_arg1))) := by
  show StableHlo.after hostOps2 (W10 m ρ c) _ = _
  unfold hopCore3 wrapIdx colIdx
  rw [← W10_v38 m ρ c, ← W10_v5 m ρ c, ← W10_v6 m ρ c]
  generalize W10 m ρ c = V
  simp only [hostOps2]
  after_results_simp <;> rfl

set_option maxHeartbeats 8000000 in
theorem W11_c11 : W11 m ρ c (Proc.devRef .tc main_c_11) = (constantI S_ 32 0#32 : IVec S_ 32) := by
  show StableHlo.after hostOps2 (W10 m ρ c) _ = _
  generalize W10 m ρ c = V
  simp only [hostOps2]
  after_results_simp <;> rfl

set_option maxHeartbeats 4000000 in
theorem W12_v52 : W12 m ρ c (Proc.devRef .tc main_v52)
    = hop3 ((dat1 (V9 m ρ) c).arrAt 4 cfg1.N) (srcIdx (m ((c : Thread nD τ).loc main_arg1))) (dstIdx (m ((c : Thread nD τ).loc main_arg1))) := by
  show StableHlo.after hostOps2_1 (W11 m ρ c) _ = _
  unfold hop3
  rw [← W11_v51 m ρ c, ← W11_c11 m ρ c]
  generalize W11 m ρ c = V
  simp only [hostOps2_1]
  after_results <;> rfl

theorem W12_v16 : W12 m ρ c (Proc.devRef .tc main_v16) = dinvPad (m ((c : Thread nD τ).loc main_arg1)) := by
  rw [W12_flat]; exact (by unwritten : _ = W10 m ρ c (Proc.devRef .tc main_v16)).trans (W10_v16 m ρ c)
theorem W12_v20 : W12 m ρ c (Proc.devRef .tc main_v20) = shapeCast S3x1 (m ((c : Thread nD τ).loc main_arg5)) shapeCasts_S3_S3x1 := by
  rw [W12_flat]; exact (by unwritten : _ = W10 m ρ c (Proc.devRef .tc main_v20)).trans (W10_v20 m ρ c)

/-- The result buffer at the last boundary: the third region's output array, un-padded and transposed. -/
theorem W14_v55 : W14 m ρ c (Proc.devRef .tc main_v55) = unpadT ((dat2 (V12 m ρ) c).arrAt 3 cfg2.N) := by
  rw [← W13_arr m ρ c 3]
  unfold unpadT
  show StableHlo.after hostOps3 (W13 m ρ c) (Proc.devRef .tc main_v55) = _
  generalize W13 m ρ c = V
  simp only [hostOps3]
  after_results <;> rfl

/-! ## What each region finds in its input arrays -/

theorem V6_0 : V6 m ρ c (Pipeline.arrRef spec0 0) = featPad (m ((c : Thread nD τ).loc main_arg0)) := W6_v22 m ρ c
theorem V6_1 : V6 m ρ c (Pipeline.arrRef spec0 1) = transpose S16x3 [1, 0] (m ((c : Thread nD τ).loc main_arg2)) transposes_S3x16_S16x3_1_0 := W6_v17 m ρ c
theorem V6_2 : V6 m ρ c (Pipeline.arrRef spec0 2) = dinvPad (m ((c : Thread nD τ).loc main_arg1)) := W6_v16 m ρ c
theorem V9_0 : V9 m ρ c (Pipeline.arrRef spec1 0)
    = hop16 ((dat0 (V6 m ρ) c).arrAt 3 cfg0.N) (srcIdx (m ((c : Thread nD τ).loc main_arg1))) (dstIdx (m ((c : Thread nD τ).loc main_arg1))) := W9_v37 m ρ c
theorem V9_1 : V9 m ρ c (Pipeline.arrRef spec1 1) = dinvPad (m ((c : Thread nD τ).loc main_arg1)) := W9_v16 m ρ c
theorem V9_2 : V9 m ρ c (Pipeline.arrRef spec1 2) = shapeCast S16x1 (m ((c : Thread nD τ).loc main_arg3)) shapeCasts_S16_S16x1 := W9_v19 m ρ c
theorem V9_3 : V9 m ρ c (Pipeline.arrRef spec1 3) = transpose S3x16 [1, 0] (m ((c : Thread nD τ).loc main_arg4)) transposes_S16x3_S3x16_1_0 := W9_v18 m ρ c
theorem V12_0 : V12 m ρ c (Pipeline.arrRef spec2 0)
    = hop3 ((dat1 (V9 m ρ) c).arrAt 4 cfg1.N) (srcIdx (m ((c : Thread nD τ).loc main_arg1))) (dstIdx (m ((c : Thread nD τ).loc main_arg1))) := W12_v52 m ρ c
theorem V12_1 : V12 m ρ c (Pipeline.arrRef spec2 1) = dinvPad (m ((c : Thread nD τ).loc main_arg1)) := W12_v16 m ρ c
theorem V12_2 : V12 m ρ c (Pipeline.arrRef spec2 2) = shapeCast S3x1 (m ((c : Thread nD τ).loc main_arg5)) shapeCasts_S3_S3x1 := W12_v20 m ρ c

end Cert.KernelIdeal.HostValue

end
-- ==== Proof.LibGatherRows.lean ====
/-
  Row gathers read at an index.

  A row gather reads, for edge `e` of an `[E, 1]` array of start indices, row `idx e` of an `[N, C]` operand
  (the index read as a signed integer and clamped into `[0, N − 1]`, as a gather clamps every start index so that
  its slice fits), column by column: the result at `(e, c)` is the operand at `(clampRow (idx e), c)`. The same for a
  one-dimensional operand: the result at `e` is the operand at `clampRow (idx e)`.
-/
import Idealize.ShloMosaic.PureOps.Ideal
import Idealize.ShloMosaic.Lib.ValueIdx

noncomputable section
namespace Cert.Lib.GatherRows
open Idealize.ShloMosaic Idealize.ShloMosaic.ValueIdx

variable {N E C w : Nat}

/-- The row a gather reads for a start index: the index as a signed integer, clamped into `[0, N − 1]`. -/
def clampRow (N : Nat) (hN : 0 < N) (v : BitVec w) : Fin N := ⟨min v.toInt.toNat (N - 1), by omega⟩

/-- A start index that already is a row number, read signed, is its own clamped row. -/
theorem clampRow_of_toInt (hN : 0 < N) (v : BitVec w) (r : Fin N) (h : v.toInt = (r.val : Int)) :
    clampRow N hN v = r := by
  apply Fin.ext
  show min v.toInt.toNat (N - 1) = r.val
  have := r.isLt
  rw [h]; simp; omega

/-- A row gather at `(e, c)`: the operand at the clamped row of edge `e`'s start index, column `c`. -/
theorem gather_rows_apply (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    {α : Type} (x : (⟨2, ![N, C]⟩ : Shape).Idx → α) (idx : IVec (⟨2, ![E, 1]⟩ : Shape) w) (e : Fin E) (c : Fin C) :
    Host.gather d x idx (ix2 e c) = x (ix2 (clampRow N hN (idx (ix2 e 0))) c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨2, ![N, C]⟩ : Shape) (⟨2, ![E, 1]⟩ : Shape) (⟨2, ![E, C]⟩ : Shape) := ⟨[1], [0], [], [], [0], 1, ![1, C], wf⟩
  show d.start (ix2 e c) idx a + d.batchCoord (ix2 e c) a + d.offCoord (ix2 e c) a = _
  rw [d.batchCoord_eq_zero _ _ List.not_mem_nil]
  match a with
  | ⟨0, h0⟩ =>
    rw [d.offCoord_eq_zero (ix2 e c) ⟨0, h0⟩ (fun h => ((d.mem_sKept _).mp h).1 (List.mem_singleton.mpr rfl))]
    simp only [Nat.add_zero]
    unfold GatherDims.start
    rw [dif_pos (show (⟨0, h0⟩ : Fin 2) ∈ d.startIndexMap from List.mem_singleton.mpr rfl)]
    have hsi : d.siIdx (ix2 e c) ⟨List.idxOf (⟨0, h0⟩ : Fin 2) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1'⟩ =>
    have hs : d.start (ix2 e c) idx ⟨1, h1'⟩ = 0 := by
      unfold GatherDims.start
      rw [dif_neg (show (⟨1, h1'⟩ : Fin 2) ∉ d.startIndexMap from
        fun h => absurd (congrArg Fin.val (List.mem_singleton.mp h)) Nat.one_ne_zero)]
    rw [hs]
    show 0 + 0 + d.offCoord (ix2 e c) ⟨1, h1'⟩ = c.val
    unfold GatherDims.offCoord
    rw [dif_pos (show (⟨1, h1'⟩ : Fin 2) ∈ d.sKept from (d.mem_sKept _).mpr
      ⟨fun h => absurd (congrArg Fin.val (List.mem_singleton.mp h)) Nat.one_ne_zero, List.not_mem_nil⟩)]
    simp only [Nat.zero_add]
    rfl

/-- A gather from a vector at `e`: the operand at the clamped row of edge `e`'s start index. -/
theorem gather_vec_apply (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    {α : Type} (x : (⟨1, ![N]⟩ : Shape).Idx → α) (idx : IVec (⟨2, ![E, 1]⟩ : Shape) w) (e : Fin E) :
    Host.gather d x idx (ix1 e) = x (ix1 (clampRow N hN (idx (ix2 e 0)))) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨1, ![N]⟩ : Shape) (⟨2, ![E, 1]⟩ : Shape) (⟨1, ![E]⟩ : Shape) := ⟨[], [0], [], [], [0], 1, ![1], wf⟩
  show d.start (ix1 e) idx a + d.batchCoord (ix1 e) a + d.offCoord (ix1 e) a = _
  rw [d.batchCoord_eq_zero _ _ List.not_mem_nil]
  match a with
  | ⟨0, h0⟩ =>
    rw [d.offCoord_eq_zero (ix1 e) ⟨0, h0⟩ (fun h => ((d.mem_sKept _).mp h).1 (List.mem_singleton.mpr rfl))]
    simp only [Nat.add_zero]
    unfold GatherDims.start
    rw [dif_pos (show (⟨0, h0⟩ : Fin 1) ∈ d.startIndexMap from List.mem_singleton.mpr rfl)]
    have hsi : d.siIdx (ix1 e) ⟨List.idxOf (⟨0, h0⟩ : Fin 1) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.Lib.GatherRows
-- ==== Proof.LibScatterRows.lean ====
/-
  Row scatters read at an index.

  A row scatter sends update row `e` of an `[E, C]` array to row `idx e` of an `[N, C]` operand (the index read
  as a signed integer, an update whose row falls outside `[0, N)` dropped), column by column. Three facts:
  * the result index of update `(e, c)` is `(idx e, c)` exactly when `0 ≤ idx e < N`;
  * an accumulating scatter over the extended reals holds, at `(r, c)`, the operand plus the sum of `upd (e, c)`
    over the edges `e` with `idx e = r` — and the same for a one-dimensional operand;
  * an overwriting scatter (the updates applied in row-major order) holds, at `(r, c)`, the update `(e₀, c)` of
    the LAST edge `e₀` with `idx e₀ = r`, and the operand where no edge has that row. The winning edge depends
    on the row only, not on the column or on the number of columns.
-/
import Idealize.ShloMosaic.PureOps.Ideal
import Idealize.ShloMosaic.Lib.ValueIdx

noncomputable section
namespace Cert.Lib.ScatterRows
open Idealize.ShloMosaic Idealize.ShloMosaic.ValueIdx

variable {N E C w : Nat}

/-- Any valid position of a one-element list holds that element. -/
theorem getElem_of_eq_singleton {α : Type} (l : List α) (a : α) (hl : l = [a]) (k : Nat) (h : k < l.length) :
    l[k]'h = a := by
  subst hl
  have : k = 0 := by simpa using h
  subst this; rfl

/-- The row edge `e` is sent to: its scatter index, read as a signed integer. -/
def rowOf (idx : IVec (⟨2, ![E, 1]⟩ : Shape) w) (e : Fin E) : Int := (idx (ix2 e 0)).toInt

/-- The window of update `j` starts at row `rowOf idx (j 0)`, column `0`, and `j` sits in it at column `j 1`. -/
theorem start0 (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (idx : IVec (⟨2, ![E, 1]⟩ : Shape) w) (j : (⟨2, ![E, C]⟩ : Shape).Idx) :
    d.start j idx 0 = rowOf idx (j 0) ∧ d.start j idx 1 = 0 ∧ d.window j 0 = 0 ∧ d.window j 1 = (j 1).val := by
  obtain ⟨uw, iw, sd, iv, wf⟩ := d
  dsimp only at h1 h2 h3 h4
  subst h1 h2 h3 h4
  have hk : (⟨[1], [0], [0], 1, wf⟩ : ScatterDims (⟨2, ![N, C]⟩ : Shape) (⟨2, ![E, 1]⟩ : Shape) (⟨2, ![E, C]⟩ : Shape)).sKept = [1] := rfl
  have hu : (⟨[1], [0], [0], 1, wf⟩ : ScatterDims (⟨2, ![N, C]⟩ : Shape) (⟨2, ![E, 1]⟩ : Shape) (⟨2, ![E, C]⟩ : Shape)).uScatter = [0] := rfl
  have hs : (⟨[1], [0], [0], 1, wf⟩ : ScatterDims (⟨2, ![N, C]⟩ : Shape) (⟨2, ![E, 1]⟩ : Shape) (⟨2, ![E, C]⟩ : Shape)).siKept = [0] := rfl
  refine ⟨?_, ?_, ?_, ?_⟩
  · unfold ScatterDims.start
    simp
    unfold rowOf
    congr 2
    funext b
    apply Fin.ext
    match b with
    | ⟨0, h0⟩ =>
      have hne : ¬ ((⟨0, h0⟩ : Fin (⟨2, ![E, 1]⟩ : Shape).rank).val = 1) := Nat.zero_ne_one
      unfold ScatterDims.siIdx
      rw [dif_neg hne]
      unfold ScatterDims.siCoord
      show (j _).val = (j 0).val
      rw [getElem_of_eq_singleton _ (0 : Fin 2) hu]
    | ⟨1, _⟩ =>
      simp [ScatterDims.siIdx]
  · unfold ScatterDims.start
    simp
  · unfold ScatterDims.window
    simp [hk]
  · unfold ScatterDims.window
    simp [hk]
    rw [getElem_of_eq_singleton ([1] : List (Fin 2)) 1 rfl]

/-- Update `j` lands on `i` exactly when `j`'s edge is sent to `i`'s row and the columns agree. -/
theorem resultIdx?_eq_some_iff (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (idx : IVec (⟨2, ![E, 1]⟩ : Shape) w) (j : (⟨2, ![E, C]⟩ : Shape).Idx)
    (i : (⟨2, ![N, C]⟩ : Shape).Idx) :
    d.resultIdx? j idx = some i ↔ rowOf idx (j 0) = ((i 0).val : Int) ∧ (j 1).val = (i 1).val := by
  obtain ⟨s0, s1, w0, w1⟩ := start0 d h1 h2 h3 h4 idx j
  unfold ScatterDims.resultIdx?
  split
  · rename_i h
    rw [Option.some.injEq]
    constructor
    · intro hi
      subst hi
      refine ⟨?_, ?_⟩
      · show rowOf idx (j 0) = (((d.start j idx 0 + d.window j 0).toNat : Nat) : Int)
        have := (h 0).1
        rw [s0, w0] at this ⊢
        omega
      · show (j 1).val = (d.start j idx 1 + d.window j 1).toNat
        rw [s1, w1]; simp
    · rintro ⟨hr, hc⟩
      funext a
      apply Fin.ext
      revert a
      refine Fin.forall_fin_two.2 ⟨?_, ?_⟩
      · show (d.start j idx 0 + d.window j 0).toNat = (i 0).val
        rw [s0, w0, hr]; simp
      · show (d.start j idx 1 + d.window j 1).toNat = (i 1).val
        rw [s1, w1, ← hc]; simp
  · rename_i h
    constructor
    · intro hh; cases hh
    · rintro ⟨hr, hc⟩
      exfalso; apply h
      refine Fin.forall_fin_two.2 ⟨?_, ?_⟩
      · rw [s0, w0, hr]
        have := (i 0).isLt
        exact ⟨by omega, by simpa using this⟩
      · rw [s1, w1, hc]
        have := (i 1).isLt
        exact ⟨by omega, by simpa using this⟩

/-- An accumulating row scatter at `(r, c)`: the operand plus the sum of column `c` over the edges sent to row `r`. -/
theorem hostScatterAdd_rows_apply (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (x : (⟨2, ![N, C]⟩ : Shape).Idx → EReal) (idx : IVec (⟨2, ![E, 1]⟩ : Shape) w)
    (upd : (⟨2, ![E, C]⟩ : Shape).Idx → EReal) (r : Fin N) (c : Fin C) :
    Ideal.hostScatterAdd d x idx upd (ix2 r c)
      = x (ix2 r c) + ∑ e ∈ Finset.univ.filter (fun e => rowOf idx e = (r.val : Int)), upd (ix2 e c) := by
  unfold Ideal.hostScatterAdd
  congr 1
  rw [Finset.sum_filter, sum_idx2, Finset.sum_filter]
  refine Finset.sum_congr rfl fun e _ => ?_
  simp only [resultIdx?_eq_some_iff d h1 h2 h3 h4]
  show (∑ b : Fin C, if rowOf idx e = (r.val : Int) ∧ b.val = c.val then upd (ix2 e b) else 0) = _
  by_cases hr : rowOf idx e = (r.val : Int)
  · simp only [hr, true_and, if_true]
    rw [Finset.sum_eq_single c]
    · simp
    · intro b _ hb
      rw [if_neg (fun h => hb (Fin.ext h))]
    · intro h; exact absurd (Finset.mem_univ c) h
  · simp only [hr, false_and, if_false]
    exact Finset.sum_const_zero

/-! ### One-dimensional operand: updates `[E]` into `[N]` -/

/-- One-dimensional operand: update `j` goes to position `rowOf idx (j 0)`. -/
theorem start1 (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (idx : IVec (⟨2, ![E, 1]⟩ : Shape) w) (j : (⟨1, ![E]⟩ : Shape).Idx) :
    d.start j idx 0 = rowOf idx (j 0) ∧ d.window j 0 = 0 := by
  obtain ⟨uw, iw, sd, iv, wf⟩ := d
  dsimp only at h1 h2 h3 h4
  subst h1 h2 h3 h4
  have hk : (⟨[], [0], [0], 1, wf⟩ : ScatterDims (⟨1, ![N]⟩ : Shape) (⟨2, ![E, 1]⟩ : Shape) (⟨1, ![E]⟩ : Shape)).sKept = [] := rfl
  have hu : (⟨[], [0], [0], 1, wf⟩ : ScatterDims (⟨1, ![N]⟩ : Shape) (⟨2, ![E, 1]⟩ : Shape) (⟨1, ![E]⟩ : Shape)).uScatter = [0] := rfl
  refine ⟨?_, ?_⟩
  · unfold ScatterDims.start
    simp
    unfold rowOf
    congr 2
    funext b
    apply Fin.ext
    match b with
    | ⟨0, h0⟩ =>
      have hne : ¬ ((⟨0, h0⟩ : Fin (⟨2, ![E, 1]⟩ : Shape).rank).val = 1) := Nat.zero_ne_one
      unfold ScatterDims.siIdx
      rw [dif_neg hne]
      unfold ScatterDims.siCoord
      show (j _).val = (j 0).val
      rw [getElem_of_eq_singleton _ (0 : Fin 1) hu]
    | ⟨1, _⟩ =>
      simp [ScatterDims.siIdx]
  · unfold ScatterDims.window
    simp [hk]

/-- One-dimensional operand: update `j` lands on `i` exactly when `j`'s edge is sent to `i`. -/
theorem resultIdx?_eq_some_iff1 (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (idx : IVec (⟨2, ![E, 1]⟩ : Shape) w) (j : (⟨1, ![E]⟩ : Shape).Idx)
    (i : (⟨1, ![N]⟩ : Shape).Idx) :
    d.resultIdx? j idx = some i ↔ rowOf idx (j 0) = ((i 0).val : Int) := by
  obtain ⟨s0, w0⟩ := start1 d h1 h2 h3 h4 idx j
  unfold ScatterDims.resultIdx?
  split
  · rename_i h
    rw [Option.some.injEq]
    constructor
    · intro hi
      subst hi
      show rowOf idx (j 0) = (((d.start j idx 0 + d.window j 0).toNat : Nat) : Int)
      have := (h 0).1
      rw [s0, w0] at this ⊢
      omega
    · intro hr
      funext a
      apply Fin.ext
      revert a
      refine (Fin.forall_fin_one).2 ?_
      show (d.start j idx 0 + d.window j 0).toNat = (i 0).val
      rw [s0, w0, hr]; simp
  · rename_i h
    constructor
    · intro hh; cases hh
    · intro hr
      exfalso; apply h
      refine (Fin.forall_fin_one).2 ?_
      rw [s0, w0, hr]
      have := (i 0).isLt
      exact ⟨by omega, by simpa using this⟩

/-- An accumulating scatter into a vector at `r`: the operand plus the sum of the updates of the edges sent to `r`. -/
theorem hostScatterAdd_vec_apply (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (x : (⟨1, ![N]⟩ : Shape).Idx → EReal) (idx : IVec (⟨2, ![E, 1]⟩ : Shape) w)
    (upd : (⟨1, ![E]⟩ : Shape).Idx → EReal) (r : Fin N) :
    Ideal.hostScatterAdd d x idx upd (ix1 r)
      = x (ix1 r) + ∑ e ∈ Finset.univ.filter (fun e => rowOf idx e = (r.val : Int)), upd (ix1 e) := by
  unfold Ideal.hostScatterAdd
  congr 1
  rw [Finset.sum_filter, Finset.sum_filter]
  simp only [resultIdx?_eq_some_iff1 d h1 h2 h3 h4]
  let eqv : (⟨1, ![E]⟩ : Shape).Idx ≃ Fin E :=
    { toFun := fun j => j 0, invFun := fun a => ix1 a, left_inv := fun j => (eq_ix1 j).symm, right_inv := fun _ => rfl }
  refine Fintype.sum_equiv eqv _ _ fun j => ?_
  have hj : upd j = upd (ix1 (j 0)) := congrArg upd (eq_ix1 j)
  show (if rowOf idx (j 0) = (r.val : Int) then upd j else 0) = if rowOf idx (j 0) = (r.val : Int) then upd (ix1 (j 0)) else 0
  rw [hj]

/-! ### Overwriting scatter: the last update in the fold's order wins -/

section Overwrite
variable {ι κ α : Type} [DecidableEq κ] (k : ι → Option κ) (v : ι → α)

/-- One step of an overwriting fold: update `n` replaces the element at its key, if it has one. -/
def owStep (r : κ → α) (n : ι) : κ → α :=
  match k n with
  | some i => fun i' => if i' = i then v n else r i'
  | none => r

/-- A step whose key is `i'` leaves its own value there. -/
theorem owStep_hit (r : κ → α) (n : ι) (i' : κ) (h : k n = some i') : owStep k v r n i' = v n := by
  unfold owStep; rw [h]; simp

/-- A step whose key is not `i'` leaves `i'` as it was. -/
theorem owStep_miss (r : κ → α) (n : ι) (i' : κ) (h : k n ≠ some i') : owStep k v r n i' = r i' := by
  unfold owStep
  cases hk : k n with
  | none => rfl
  | some i =>
    have : i' ≠ i := fun e => h (by rw [hk, e])
    simp [this]

/-- Steps none of which has key `i'` leave `i'` as it was. -/
theorem foldl_ow_miss (l : List ι) (x : κ → α) (i' : κ) (h : ∀ n ∈ l, k n ≠ some i') :
    (l.foldl (owStep k v) x) i' = x i' := by
  induction l generalizing x with
  | nil => rfl
  | cons a l ih =>
    rw [List.foldl_cons, ih _ (fun n hn => h n (List.mem_cons_of_mem _ hn)),
      owStep_miss k v x a i' (h a List.mem_cons_self)]

/-- If `n₀` has key `i'` and no later step has, the fold leaves `n₀`'s value at `i'`. -/
theorem foldl_ow_last (l₁ l₂ : List ι) (n₀ : ι) (x : κ → α) (i' : κ) (h0 : k n₀ = some i')
    (h : ∀ m ∈ l₂, k m ≠ some i') : ((l₁ ++ n₀ :: l₂).foldl (owStep k v) x) i' = v n₀ := by
  rw [List.foldl_append, List.foldl_cons, foldl_ow_miss k v l₂ _ i' h, owStep_hit k v _ n₀ i' h0]

end Overwrite

/-- An overwriting scatter is the overwriting fold over the updates in row-major order. -/
theorem scatter_set_eq_foldl {s si u : Shape} {α : Type} (d : ScatterDims s si u) (x : s.Idx → α) (idx : IVec si w)
    (upd : u.Idx → α) :
    Host.scatter d (fun _ b => b) x idx upd
      = (List.finRange u.numel).foldl
          (owStep (fun n => d.resultIdx? (u.rowMajor.symm n) idx) (fun n => upd (u.rowMajor.symm n))) x := by
  unfold Host.scatter
  congr 1
  funext r n
  unfold owStep
  beta_reduce
  cases d.resultIdx? (u.rowMajor.symm n) idx with
  | none => rfl
  | some i => rfl

/-- A row no edge is sent to keeps the operand. -/
theorem scatter_set_rows_miss (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) {α : Type} (x : (⟨2, ![N, C]⟩ : Shape).Idx → α) (idx : IVec (⟨2, ![E, 1]⟩ : Shape) w)
    (upd : (⟨2, ![E, C]⟩ : Shape).Idx → α) (r : Fin N) (c : Fin C)
    (hnone : ∀ e, rowOf idx e ≠ (r.val : Int)) :
    Host.scatter d (fun _ b => b) x idx upd (ix2 r c) = x (ix2 r c) := by
  rw [scatter_set_eq_foldl]
  apply foldl_ow_miss
  intro n _ hk
  have hk' := (resultIdx?_eq_some_iff d h1 h2 h3 h4 idx _ _).1 hk
  exact hnone _ hk'.1

/-- A row holds, in every column, the update row of the last edge sent to it. -/
theorem scatter_set_rows_hit (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) {α : Type} (x : (⟨2, ![N, C]⟩ : Shape).Idx → α) (idx : IVec (⟨2, ![E, 1]⟩ : Shape) w)
    (upd : (⟨2, ![E, C]⟩ : Shape).Idx → α) (r : Fin N) (c : Fin C) (e₀ : Fin E)
    (he : rowOf idx e₀ = (r.val : Int)) (hlast : ∀ e, e₀ < e → rowOf idx e ≠ (r.val : Int)) :
    Host.scatter d (fun _ b => b) x idx upd (ix2 r c) = upd (ix2 e₀ c) := by
  rw [scatter_set_eq_foldl]
  let n₀ : Fin (⟨2, ![E, C]⟩ : Shape).numel := (⟨2, ![E, C]⟩ : Shape).rowMajor (ix2 e₀ c)
  obtain ⟨l₁, l₂, hl⟩ := List.append_of_mem (List.mem_finRange n₀)
  have hpw := List.pairwise_lt_finRange (⟨2, ![E, C]⟩ : Shape).numel
  rw [hl] at hpw ⊢
  have hgt : ∀ m ∈ l₂, n₀ < m := (List.pairwise_cons.1 (List.pairwise_append.1 hpw).2.1).1
  refine (foldl_ow_last _ _ l₁ l₂ n₀ x (ix2 r c) ?_ ?_).trans ?_
  · show d.resultIdx? ((⟨2, ![E, C]⟩ : Shape).rowMajor.symm n₀) idx = some (ix2 r c)
    rw [Equiv.symm_apply_apply, resultIdx?_eq_some_iff d h1 h2 h3 h4]
    exact ⟨he, rfl⟩
  · intro m hm hk
    obtain ⟨hr, hc⟩ := (resultIdx?_eq_some_iff d h1 h2 h3 h4 idx _ _).1 hk
    have hlt : n₀.val < m.val := hgt m hm
    have hm' : m = (⟨2, ![E, C]⟩ : Shape).rowMajor ((⟨2, ![E, C]⟩ : Shape).rowMajor.symm m) :=
      (Equiv.apply_symm_apply _ _).symm
    have hle : ¬ e₀ < (((⟨2, ![E, C]⟩ : Shape).rowMajor.symm m) 0) := fun h => hlast _ h hr
    have v1 := Shape.rowMajor_val_two ((⟨2, ![E, C]⟩ : Shape).rowMajor.symm m)
    have v0 : n₀.val = _ := Shape.rowMajor_val_two (ix2 e₀ c)
    rw [hm', v1, v0] at hlt
    have hle' : ((((⟨2, ![E, C]⟩ : Shape).rowMajor.symm m) 0) : Fin E).val ≤ e₀.val := Nat.le_of_not_lt hle
    have hmul := Nat.mul_le_mul_right C hle'
    have hc' : ((((⟨2, ![E, C]⟩ : Shape).rowMajor.symm m) 1) : Fin C).val = c.val := hc
    have hlt' : e₀.val * C + c.val
        < ((((⟨2, ![E, C]⟩ : Shape).rowMajor.symm m) 0) : Fin E).val * C
          + ((((⟨2, ![E, C]⟩ : Shape).rowMajor.symm m) 1) : Fin C).val := hlt
    omega
  · show upd ((⟨2, ![E, C]⟩ : Shape).rowMajor.symm n₀) = _
    rw [Equiv.symm_apply_apply]

/-- Either no element satisfies `p`, or there is a last one that does. -/
theorem none_or_last (p : Fin E → Prop) [DecidablePred p] :
    (∀ e, ¬ p e) ∨ ∃ e₀, p e₀ ∧ ∀ e, e₀ < e → ¬ p e := by
  by_cases h : ∃ e, p e
  · right
    obtain ⟨e, he⟩ := h
    obtain ⟨e₀, he₀, hmax⟩ := Finset.exists_max_image (Finset.univ.filter p) id ⟨e, by simp [he]⟩
    refine ⟨e₀, (Finset.mem_filter.1 he₀).2, fun e' hlt hpe => ?_⟩
    have := hmax e' (by simp [hpe])
    exact absurd hlt (not_lt.2 this)
  · left; exact fun e he => h ⟨e, he⟩

end Cert.Lib.ScatterRows
-- ==== Proof.GcnEdges.lean ====
/-
  The edge structure of the graph, as the two index arrays present it.

  Every gather of the programs reads, for edge `e`, the row `gRow I e` of a node table: the start index `I (e, 0)`
  read as a signed integer and clamped into the table. Every scatter-add sends edge `e` to the row `D (e, 0)` read as
  a signed integer, and drops the edge when that is no row of the table: `edgesInto D n` are the edges it sends to
  node `n`. Two facts tie them together. An index that is a row number is its own clamped row, before and after the
  wrap of negative indices that array indexing applies (a negative index has `N` added): so on the edges sent to
  `n`, a gather through the wrapped destination index reads row `n`.
-/
import proofs.«177786_j29454885716720_1_alg».proof.Proof.LibGatherRows
import proofs.«177786_j29454885716720_1_alg».proof.Proof.LibScatterRows

noncomputable section
namespace Cert.Gcn
open Idealize.ShloMosaic Idealize.ShloMosaic.ValueIdx Cert.Lib.GatherRows Cert.Lib.ScatterRows

/-- The number of nodes. -/
abbrev NN : Nat := 200000
/-- The number of edges, the self loops included. -/
abbrev EE : Nat := 6600000
theorem NN_pos : 0 < NN := by decide

/-- An array of one 32-bit index per edge, as the gathers and scatters take it. -/
abbrev EIdx : Type := IVec (⟨2, ![EE, 1]⟩ : Shape) 32

/-- The node row a gather reads for edge `e`. -/
def gRow (I : EIdx) (e : Fin EE) : Fin NN := clampRow NN NN_pos (I (ix2 e 0))

/-- The edges a scatter-add sends to node `n`. -/
def edgesInto (D : EIdx) (n : Fin NN) : Finset (Fin EE) :=
  Finset.univ.filter fun e => rowOf D e = (n.val : Int)

theorem mem_edgesInto (D : EIdx) (n : Fin NN) (e : Fin EE) : e ∈ edgesInto D n ↔ (D (ix2 e 0)).toInt = (n.val : Int) := by
  unfold edgesInto rowOf; simp

/-- On an edge sent to node `n`, a gather through the same index reads row `n`. -/
theorem gRow_of_mem (D : EIdx) (n : Fin NN) (e : Fin EE) (h : e ∈ edgesInto D n) : gRow D e = n :=
  clampRow_of_toInt NN_pos _ n ((mem_edgesInto D n e).1 h)

/-- On an edge sent to node `n`, a gather through any index array that agrees with `D` at `e` reads row `n`. -/
theorem gRow_of_mem_of_eq (D D' : EIdx) (n : Fin NN) (e : Fin EE) (h : e ∈ edgesInto D n)
    (h' : D' (ix2 e 0) = D (ix2 e 0)) : gRow D' e = n := by
  unfold gRow; rw [h']; exact gRow_of_mem D n e h

end Cert.Gcn
-- ==== Proof.LibKeepdims.lean ====
/-
  A kept reduced axis, read at an index.

  A row reduction that keeps its axis as a unit axis is spelt as a cast of the reduced vector [a] to a column [a, 1]
  followed by a spread of that column over b columns, [a, 1] → [a, b]. At (p, c) the spread reads the column at row p,
  and the column at (p, 0) reads the vector at p: both pairs of indices have the same row-major position, and a
  broadcast keeps every coordinate of an axis whose extent it does not change. Stated at any extents and any element type.
-/
import Idealize.ShloMosaic.Lib.Pipeline.Value
import Idealize.ShloMosaic.Lib.ValueIdx
import Idealize.ShloMosaic.Lib.ValueLayout

namespace Cert.Keepdims

open Idealize.ShloMosaic Idealize.ShloMosaic.ValueIdx

variable {α : Type}

/-- An `[a]` array cast to `[a, 1]` reads, at `(i, u)`, the operand at `i`, whatever the unit coordinate `u`: both
    indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelIndex.lean ====
/-
  The kernel program's host plumbing, read at an index.

  Node `j` sits in column `j` of the padded arrays (the padding columns `200000 … 200063` are never read back). The
  `dinv` row at column `j` is `dinv j`; the padded transposed features at `(l, j)` are the features at `(j, l)`. A
  hop at `(k, j)` is the zero it starts from plus, over the edges sent to node `j`, the previous region's output at
  `(k, column of the edge's gathered source row)`. The result at `(n, f)` is the last region's output at
  `(f, column n)`. A transposed weight at `(k, l)` is the weight at `(l, k)`; a bias column at `(k, 0)` is the bias
  at `k`.
-/
import proofs.«177786_j29454885716720_1_alg».proof.Proof.KernelHost
import proofs.«177786_j29454885716720_1_alg».proof.Proof.GcnEdges
import proofs.«177786_j29454885716720_1_alg».proof.Proof.LibKeepdims
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.HostValue

open Idealize.ShloMosaic Idealize.ShloMosaic.ValueIdx
open Cert.KernelIdeal Cert.KernelIdeal.Gen Cert.Gcn Cert.Lib.GatherRows Cert.Lib.ScatterRows

/-- The host's accumulating scatter over the extended reals is the exact sum (stated over any shapes, where it
    holds by definition). -/
theorem host_scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-- Node `j`'s column in the padded arrays. -/
def colOf (j : Fin 200000) : Fin 200064 := ⟨j.val, by have := j.isLt; omega⟩

theorem dinvPad_apply (e1 : I32 S2x6400000) (j : Fin 200000) :
    dinvPad e1 (ix2 (0 : Fin 1) (colOf j)) = dinvV e1 (ix1 j) := by
  unfold dinvPad
  rw [pad_apply_of_inside ![0, 0] ![0, 64] ![0, 0] _ _ pads_S1x200000_S1x200064_000_0640 h_S_ _ (ix2 (0 : Fin 1) j)
    (fun a => match a with
      | ⟨0, _⟩ => by show (0 : ℕ) = 0 + 0 * (0 + 1); omega
      | ⟨1, _⟩ => by show j.val = 0 + j.val * (0 + 1); omega)]
  exact shapeCast_a_1a_apply _ _ 0 j

theorem featPad_apply (x : F32 S200000x3) (l : Fin 3) (j : Fin 200000) :
    featPad x (ix2 l (colOf j)) = x (ix2 j l) := by
  unfold featPad
  rw [pad_apply_of_inside ![0, 0] ![0, 64] ![0, 0] _ _ pads_S3x200000_S3x200064_000_0640 h_S_ _ (ix2 l j)
    (fun a => match a with
      | ⟨0, _⟩ => by show l.val = 0 + l.val * (0 + 1); omega
      | ⟨1, _⟩ => by show j.val = 0 + j.val * (0 + 1); omega)]
  exact transpose_ix2_apply x _ l j

theorem unpadT_apply (o : F32 S3x200064) (n : Fin 200000) (f : Fin 3) :
    unpadT o (ix2 n f) = o (ix2 f (colOf n)) := by
  unfold unpadT
  rw [transpose_ix2_apply]
  exact extractStridedSlice_apply ![0, 0] o slices_S3x200064_S3x200000_0_0 (ix2 f n) (ix2 f (colOf n))
    (fun a => match a with
      | ⟨0, _⟩ => by show f.val = 0 + f.val; omega
      | ⟨1, _⟩ => by show n.val = 0 + n.val; omega)

/-- A hop over sixteen feature rows at `(k, column j)`. -/
theorem hop16_apply (prev : F32 S16x200064) (s d : I32 S6600000) (k : Fin 16) (j : Fin 200000) :
    hop16 prev s d (ix2 k (colOf j))
      = Ideal.ofBits .f32 0x00000000#32 + ∑ e ∈ edgesInto (colIdx d) j, prev (ix2 k (colOf (gRow (wrapIdx s) e))) := by
  unfold hop16 hopCore16
  rw [pad_apply_of_inside ![0, 0] ![0, 64] ![0, 0] _ _ pads_S16x200000_S16x200064_000_0640 h_S_ _ (ix2 k j)
    (fun a => match a with
      | ⟨0, _⟩ => by show k.val = 0 + k.val * (0 + 1); omega
      | ⟨1, _⟩ => by show j.val = 0 + j.val * (0 + 1); omega)]
  rw [transpose_ix2_apply]
  rw [host_scatterAdd_ideal]
  rw [hostScatterAdd_rows_apply scatter_S200000x16_S6600000x1_S6600000x16_1_0_0_1 rfl rfl rfl rfl]
  unfold edgesInto
  refine congrArg₂ (· + ·) rfl (Finset.sum_congr rfl fun e _ => ?_)
  rw [gather_rows_apply NN_pos _ rfl rfl rfl rfl rfl rfl rfl]
  rw [transpose_ix2_apply]
  exact extractStridedSlice_apply ![0, 0] prev slices_S16x200064_S16x200000_0_0 _ (ix2 k (colOf (gRow (wrapIdx s) e)))
    (fun a => match a with
      | ⟨0, _⟩ => by show k.val = 0 + k.val; omega
      | ⟨1, _⟩ => by show (gRow (wrapIdx s) e).val = 0 + (gRow (wrapIdx s) e).val; omega)

/-- A hop over three feature rows at `(f, column n)`. -/
theorem hop3_apply (prev : F32 S3x200064) (s d : I32 S6600000) (f : Fin 3) (n : Fin 200000) :
    hop3 prev s d (ix2 f (colOf n))
      = Ideal.ofBits .f32 0x00000000#32 + ∑ e ∈ edgesInto (colIdx d) n, prev (ix2 f (colOf (gRow (wrapIdx s) e))) := by
  unfold hop3 hopCore3
  rw [pad_apply_of_inside ![0, 0] ![0, 64] ![0, 0] _ _ pads_S3x200000_S3x200064_000_0640 h_S_ _ (ix2 f n)
    (fun a => match a with
      | ⟨0, _⟩ => by show f.val = 0 + f.val * (0 + 1); omega
      | ⟨1, _⟩ => by show n.val = 0 + n.val * (0 + 1); omega)]
  rw [transpose_ix2_apply]
  rw [host_scatterAdd_ideal]
  rw [hostScatterAdd_rows_apply scatter_S200000x3_S6600000x1_S6600000x3_1_0_0_1 rfl rfl rfl rfl]
  unfold edgesInto
  refine congrArg₂ (· + ·) rfl (Finset.sum_congr rfl fun e _ => ?_)
  rw [gather_rows_apply NN_pos _ rfl rfl rfl rfl rfl rfl rfl]
  rw [transpose_ix2_apply]
  exact extractStridedSlice_apply ![0, 0] prev slices_S3x200064_S3x200000_0_0 _ (ix2 f (colOf (gRow (wrapIdx s) e)))
    (fun a => match a with
      | ⟨0, _⟩ => by show f.val = 0 + f.val; omega
      | ⟨1, _⟩ => by show (gRow (wrapIdx s) e).val = 0 + (gRow (wrapIdx s) e).val; omega)

/-- On an edge sent to node `n` its destination index is a row number, hence not negative: the wrap leaves it. -/
theorem wrapIdx_of_mem (d : I32 S6600000) (n : Fin 200000) (e : Fin 6600000) (h : e ∈ edgesInto (colIdx d) n) :
    wrapIdx d (ix2 e 0) = colIdx d (ix2 e 0) := by
  have hv : (colIdx d (ix2 e 0)).toInt = (n.val : Int) := (mem_edgesInto _ n e).1 h
  show Scalar.select (IntOp.cmpi .slt (colIdx d (ix2 e 0)) 0#32) (IntOp.addi (colIdx d (ix2 e 0)) 200000#32) (colIdx d (ix2 e 0)) = _
  have hc : IntOp.cmpi .slt (colIdx d (ix2 e 0)) 0#32 = 0#1 := by
    unfold IntOp.cmpi
    have : ¬ (colIdx d (ix2 e 0)).slt 0#32 = true := by
      rw [BitVec.slt_eq_decide]; simp [hv]
    simp [this]
  rw [hc, select_zero]

/-- On the edges sent to node `n`, a gather through the wrapped destination index reads row `n`. -/
theorem gRow_wrap_dst (d : I32 S6600000) (n : Fin 200000) (e : Fin 6600000) (h : e ∈ edgesInto (colIdx d) n) :
    gRow (wrapIdx d) e = n :=
  gRow_of_mem_of_eq (colIdx d) (wrapIdx d) n e h (wrapIdx_of_mem d n e h)

end Cert.KernelIdeal.HostValue

end
-- ==== Proof.Region0.lean ====
import proofs.«177786_j29454885716720_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The first region: the first linear map, scaled

Every column j of the [16, 200064] output is the transposed weight matrix applied to column j of the transposed
features, scaled by the column's normalisation factor:
out[f, j] = (sum over k < 3 of wT[f, k] * xT[k, j]) * dv[0, j]. The product is accumulated into a zero block, which
adds nothing. The region computes it on three blocks of 66688 columns; the blocks tile the array, so the array ends
holding that function of the three input arrays. -/

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The output of the first region as one function of its three input arrays, index by index. -/
def prepOut (xT : S3x200064.Idx → EReal) (wT : S16x3.Idx → EReal) (dv : S1x200064.Idx → EReal) :
    S16x200064.Idx → EReal :=
  fun i => (∑ k : Fin 3, wT (ix2 (⟨(i 0).val, idx2_lt0 i⟩ : Fin 16) k)
      * xT (ix2 k (⟨(i 1).val, idx2_lt1 i⟩ : Fin 200064)))
    * dv (ix2 (0 : Fin 1) (⟨(i 1).val, idx2_lt1 i⟩ : Fin 200064))

theorem prepOut_apply (xT : S3x200064.Idx → EReal) (wT : S16x3.Idx → EReal) (dv : S1x200064.Idx → EReal)
    (f : Fin 16) (j : Fin 200064) :
    prepOut xT wT dv (ix2 f j) = (∑ k : Fin 3, wT (ix2 f k) * xT (ix2 k j)) * dv (ix2 (0 : Fin 1) j) := rfl

/-- The left operand's row is the output's row. -/
theorem lhs0_row (i : S16x66688.Idx) (q : dot_S16x3_S3x66688_S16x66688_1_0_0_1_n_n.contr.Idx) :
    (dot_S16x3_S3x66688_S16x66688_1_0_0_1_n_n.lhsIdx i q 0).val = (i 0).val := by
  unfold DotDims.lhsIdx
  rw [dif_neg (show ¬(0 : Fin S16x3.rank) ∈ dot_S16x3_S3x66688_S16x66688_1_0_0_1_n_n.lhsBatch by decide),
    dif_pos (show (0 : Fin S16x3.rank) ∈ dot_S16x3_S3x66688_S16x66688_1_0_0_1_n_n.lhsNonContracting by decide)]
  rfl

/-- The right operand's column is the output's column. -/
theorem rhs0_col (i : S16x66688.Idx) (q : dot_S16x3_S3x66688_S16x66688_1_0_0_1_n_n.contr.Idx) :
    (dot_S16x3_S3x66688_S16x66688_1_0_0_1_n_n.rhsIdx i q 1).val = (i 1).val := by
  unfold DotDims.rhsIdx
  rw [dif_neg (show ¬(1 : Fin S3x66688.rank) ∈ dot_S16x3_S3x66688_S16x66688_1_0_0_1_n_n.rhsBatch by decide),
    dif_pos (show (1 : Fin S3x66688.rank) ∈ dot_S16x3_S3x66688_S16x66688_1_0_0_1_n_n.rhsNonContracting by decide)]
  rfl

/-- The matrix product into a zero block, at one entry: the contraction runs over the three feature rows. -/
theorem matmul0_apply (l : FVec Ideal S16x3 .bf16) (r : FVec Ideal S3x66688 .bf16) (f : Fin 16) (q : Fin 66688) :
    FloatOps.matmul dot_S16x3_S3x66688_S16x66688_1_0_0_1_n_n none l r
        (constant (F := Ideal) S16x66688 .f32 0x00000000#32) (ix2 f q)
      = ∑ k : Fin 3, l (ix2 f k) * r (ix2 k q) := by
  rw [Ideal.matmul_constant_zero_apply,
    ← Equiv.sum_comp (contrEquiv1 dot_S16x3_S3x66688_S16x66688_1_0_0_1_n_n 3 rfl rfl).symm]
  refine Finset.sum_congr rfl fun k _ => ?_
  have hk := contrEquiv1_symm_val dot_S16x3_S3x66688_S16x66688_1_0_0_1_n_n 3 rfl rfl k
  have el : dot_S16x3_S3x66688_S16x66688_1_0_0_1_n_n.lhsIdx (ix2 f q)
      ((contrEquiv1 dot_S16x3_S3x66688_S16x66688_1_0_0_1_n_n 3 rfl rfl).symm k) = ix2 f k :=
    funext fun a => Fin.ext (by
      match a with
      | ⟨0, _⟩ => exact lhs0_row _ _
      | ⟨1, _⟩ => exact (dot_S16x3_S3x66688_S16x66688_1_0_0_1_n_n.lhsIdx_val_of_single rfl _ _).trans hk)
  have er : dot_S16x3_S3x66688_S16x66688_1_0_0_1_n_n.rhsIdx (ix2 f q)
      ((contrEquiv1 dot_S16x3_S3x66688_S16x66688_1_0_0_1_n_n 3 rfl rfl).symm k) = ix2 k q :=
    funext fun a => Fin.ext (by
      match a with
      | ⟨0, _⟩ => exact (dot_S16x3_S3x66688_S16x66688_1_0_0_1_n_n.rhsIdx_val_of_single rfl _ _).trans hk
      | ⟨1, _⟩ => exact rhs0_col _ _)
  rw [el, er]

/-- The body's arithmetic at one entry of its block. -/
theorem pay0_apply (x0 : Vec Ideal S3x66688 .f32) (x1 : Vec Ideal S16x3 .f32) (x2 : Vec Ideal S1x66688 .f32)
    (f : Fin 16) (q : Fin 66688) :
    k0_pay1 x0 x1 x2 (ix2 f q) = (∑ k : Fin 3, x1 (ix2 f k) * x0 (ix2 k q)) * x2 (ix2 (0 : Fin 1) q) := by
  unfold k0_pay1
  simp only [shapeCast_self, matmul]
  rw [mulf_apply, broadcastTo_1b_ab_apply, matmul0_apply]
  rfl

theorem hz0 : (![0, 0] : Fin 2 → Nat) = fun _ => 0 := funext fun a => by fin_cases a <;> rfl

/-- The block index maps over the grid: the column windows sit at block t of the column axis, the weights are whole. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem lt_N0 (t : Fin cfg0.N) : t.val < 3 := t.isLt.trans_eq N_0

variable (V : (c : Dev nD) → (b : Ref sig .tc) → Buf (Elt Ideal) ((c : Thread nD τ).loc b))

/-- The block of the features at point t is columns 66688 t ... 66688 t + 66687 of the array. -/
theorem iblk0_0_apply (c : Dev nD) (t : Fin cfg0.N) (k : Fin 3) (q : Fin 66688) (hb : t.val * 66688 + q.val < 200064) :
    (iblk0 V c 0 t : Vec Ideal S3x66688 .f32) (ix2 k q)
      = (V c (Pipeline.arrRef spec0 0) : S3x200064.Idx → EReal) (ix2 k ⟨t.val * 66688 + q.val, hb⟩) := by
  obtain ⟨e0, e1, -⟩ := idx_facts0 t
  unfold iblk0
  show (V c (Pipeline.arrRef spec0 0) : S3x200064.Idx → EReal) (((cfg0.win 0).blk t).view.emb (ix2 k q)) = _
  refine congrArg _ (funext fun a => Fin.ext ?_)
  match a with
  | ⟨0, _⟩ => show win0_0.index t 0 * 3 + 1 * k.val = k.val; rw [e0]; omega
  | ⟨1, _⟩ => show win0_0.index t 1 * 66688 + 1 * q.val = t.val * 66688 + q.val; rw [e1]; omega

/-- The weights are read whole at every point. -/
theorem iblk0_1_apply (c : Dev nD) (t : Fin cfg0.N) (f : Fin 16) (k : Fin 3) :
    (iblk0 V c 1 t : Vec Ideal S16x3 .f32) (ix2 f k)
      = (V c (Pipeline.arrRef spec0 1) : S16x3.Idx → EReal) (ix2 f k) := by
  obtain ⟨-, -, e0, e1, -⟩ := idx_facts0 t
  unfold iblk0
  show (V c (Pipeline.arrRef spec0 1) : S16x3.Idx → EReal) (((cfg0.win 1).blk t).view.emb (ix2 f k)) = _
  refine congrArg _ (funext fun a => Fin.ext ?_)
  match a with
  | ⟨0, _⟩ => show win0_1.index t 0 * 16 + 1 * f.val = f.val; rw [e0]; omega
  | ⟨1, _⟩ => show win0_1.index t 1 * 3 + 1 * k.val = k.val; rw [e1]; omega

/-- The block of the normalisation factors at point t is the same columns of the one-row array. -/
theorem iblk0_2_apply (c : Dev nD) (t : Fin cfg0.N) (q : Fin 66688) (hb : t.val * 66688 + q.val < 200064) :
    (iblk0 V c 2 t : Vec Ideal S1x66688 .f32) (ix2 (0 : Fin 1) q)
      = (V c (Pipeline.arrRef spec0 2) : S1x200064.Idx → EReal) (ix2 (0 : Fin 1) ⟨t.val * 66688 + q.val, hb⟩) := by
  obtain ⟨-, -, -, -, e0, e1, -⟩ := idx_facts0 t
  unfold iblk0
  show (V c (Pipeline.arrRef spec0 2) : S1x200064.Idx → EReal) (((cfg0.win 2).blk t).view.emb (ix2 (0 : Fin 1) q)) = _
  refine congrArg _ (funext fun a => Fin.ext ?_)
  match a with
  | ⟨0, _⟩ => show win0_2.index t 0 * 1 + 1 * 0 = 0; rw [e0]
  | ⟨1, _⟩ => show win0_2.index t 1 * 66688 + 1 * q.val = t.val * 66688 + q.val; rw [e1]; omega

/-- What point t writes back is block t of prepOut of the arrays the region finds. -/
theorem flushed0_eq (c : Dev nD) (t : Fin cfg0.N) :
    (dat0 V c).flushed 3 t = ((cfg0.win 3).blk t).view.read (Elt Ideal)
      (prepOut (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S3x66688) hz0, View.ld_unit_zero (S := S16x3) hz0, View.ld_unit_zero (S := S1x66688) hz0]
  obtain ⟨-, -, -, -, -, -, e0, e1⟩ := idx_facts0 t
  have ht := lt_N0 t
  funext y
  obtain ⟨f, q, rfl⟩ : ∃ (f : Fin 16) (q : Fin 66688), y = ix2 f q := ⟨y 0, y 1, eq_ix2 y⟩
  have hb : t.val * 66688 + q.val < 200064 := by have := q.isLt; omega
  have hemb : ((cfg0.win 3).blk t).view.emb (ix2 f q) = (ix2 f ⟨t.val * 66688 + q.val, hb⟩ : S16x200064.Idx) :=
    funext fun a => Fin.ext (by
      match a with
      | ⟨0, _⟩ => show win0_3.index t 0 * 16 + 1 * f.val = f.val; rw [e0]; omega
      | ⟨1, _⟩ => show win0_3.index t 1 * 66688 + 1 * q.val = t.val * 66688 + q.val; rw [e1]; omega)
  show k0_pay1 (iblk0 V c 0 t) (iblk0 V c 1 t) (iblk0 V c 2 t) (ix2 f q)
    = prepOut _ _ _ (((cfg0.win 3).blk t).view.emb (ix2 f q))
  rw [hemb, prepOut_apply]
  refine (pay0_apply _ _ _ f q).trans ?_
  rw [iblk0_2_apply V c t q hb]
  refine congrArg (· * _) (Finset.sum_congr rfl fun k _ => ?_)
  rw [iblk0_0_apply V c t k q hb, iblk0_1_apply V c t f k]

/-- An index of the array is in point t's block iff each coordinate is in the block's range on its axis. -/
theorem mem_blk0 (t : Fin cfg0.N) (i : S16x200064.Idx) :
    i ∈ ((cfg0.win 3).blk t).view.set ↔ ∀ a : Fin 2, win0_3.index t a * S16x66688.size a ≤ (i a).val
      ∧ (i a).val < win0_3.index t a * S16x66688.size a + S16x66688.size a := by
  show i ∈ ((View.whole main_v23).slice (win0_3.rect t)).set ↔ _
  rw [View.set_slice_whole, Rect.mem_set_unit]
  exact Iff.rfl

/-- The three blocks tile the array: column j is in the block of point j / 66688. -/
theorem cover0 (i : S16x200064.Idx) :
    ∃ t : Fin cfg0.N, (cfg0.win 3).flush t = true ∧ i ∈ ((cfg0.win 3).blk t).view.set := by
  have hi0 : (i 0).val < 16 := idx2_lt0 i
  have hi1 : (i 1).val < 200064 := idx2_lt1 i
  refine ⟨⟨(i 1).val / 66688, (by omega : (i 1).val / 66688 < 3).trans_eq N_0.symm⟩, flush0_3 _, ?_⟩
  rw [mem_blk0]
  obtain ⟨-, -, -, -, -, -, e0, e1⟩ := idx_facts0 ⟨(i 1).val / 66688, (by omega : (i 1).val / 66688 < 3).trans_eq N_0.symm⟩
  intro a
  match a with
  | ⟨0, _⟩ =>
    show win0_3.index _ (0 : Fin 2) * 16 ≤ (i 0).val ∧ (i 0).val < win0_3.index _ (0 : Fin 2) * 16 + 16
    rw [e0]; omega
  | ⟨1, _⟩ =>
    show win0_3.index _ (1 : Fin 2) * 66688 ≤ (i 1).val ∧ (i 1).val < win0_3.index _ (1 : Fin 2) * 66688 + 66688
    rw [e1]
    show (i 1).val / 66688 * 66688 ≤ (i 1).val ∧ (i 1).val < (i 1).val / 66688 * 66688 + 66688
    omega

/-- The output array of the first region after all its grid points. -/
theorem final0 (c : Dev nD) :
    (dat0 V c).arrAt 3 cfg0.N
      = prepOut (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.RegionValue

end
-- ==== Proof.Region1.lean ====
import proofs.«177786_j29454885716720_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The second region: the first layer's epilogue and the second linear map, scaled

Every column j of the [16, 200064] scattered sums is scaled by the column's normalisation factor, the bias of its
row is added and the negative part is cut: h[k, j] = max (raw[k, j] * dv[0, j] + b[k, 0]) 0. The transposed second
weight matrix is applied to it and the result is scaled again:
out[f, j] = (sum over k < 16 of wT[f, k] * h[k, j]) * dv[0, j]. The product is accumulated into a zero block, which
adds nothing. The region computes it on three blocks of 66688 columns; the blocks tile the array, so the array ends
holding that function of the four input arrays. -/

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The output of the second region as one function of its four input arrays, index by index. -/
def midOut (raw : S16x200064.Idx → EReal) (dv : S1x200064.Idx → EReal) (b : S16x1.Idx → EReal)
    (wT : S3x16.Idx → EReal) : S3x200064.Idx → EReal :=
  fun i => (∑ k : Fin 16, wT (ix2 (⟨(i 0).val, idx2_lt0 i⟩ : Fin 3) k)
      * max (raw (ix2 k (⟨(i 1).val, idx2_lt1 i⟩ : Fin 200064))
            * dv (ix2 (0 : Fin 1) (⟨(i 1).val, idx2_lt1 i⟩ : Fin 200064)) + b (ix2 k (0 : Fin 1)))
          (Ideal.ofBits .f32 0x00000000#32))
    * dv (ix2 (0 : Fin 1) (⟨(i 1).val, idx2_lt1 i⟩ : Fin 200064))

theorem midOut_apply (raw : S16x200064.Idx → EReal) (dv : S1x200064.Idx → EReal) (b : S16x1.Idx → EReal)
    (wT : S3x16.Idx → EReal) (f : Fin 3) (j : Fin 200064) :
    midOut raw dv b wT (ix2 f j)
      = (∑ k : Fin 16, wT (ix2 f k)
          * max (raw (ix2 k j) * dv (ix2 (0 : Fin 1) j) + b (ix2 k (0 : Fin 1))) (Ideal.ofBits .f32 0x00000000#32))
        * dv (ix2 (0 : Fin 1) j) := rfl

/-- A one-column array broadcast over the columns reads, at (p, c), the operand's one column at p. -/
theorem broadcastTo_col1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row. -/
theorem lhs1_row (i : S3x66688.Idx) (q : dot_S3x16_S16x66688_S3x66688_1_0_0_1_n_n.contr.Idx) :
    (dot_S3x16_S16x66688_S3x66688_1_0_0_1_n_n.lhsIdx i q 0).val = (i 0).val := by
  unfold DotDims.lhsIdx
  rw [dif_neg (show ¬(0 : Fin S3x16.rank) ∈ dot_S3x16_S16x66688_S3x66688_1_0_0_1_n_n.lhsBatch by decide),
    dif_pos (show (0 : Fin S3x16.rank) ∈ dot_S3x16_S16x66688_S3x66688_1_0_0_1_n_n.lhsNonContracting by decide)]
  rfl

/-- The right operand's column is the output's column. -/
theorem rhs1_col (i : S3x66688.Idx) (q : dot_S3x16_S16x66688_S3x66688_1_0_0_1_n_n.contr.Idx) :
    (dot_S3x16_S16x66688_S3x66688_1_0_0_1_n_n.rhsIdx i q 1).val = (i 1).val := by
  unfold DotDims.rhsIdx
  rw [dif_neg (show ¬(1 : Fin S16x66688.rank) ∈ dot_S3x16_S16x66688_S3x66688_1_0_0_1_n_n.rhsBatch by decide),
    dif_pos (show (1 : Fin S16x66688.rank) ∈ dot_S3x16_S16x66688_S3x66688_1_0_0_1_n_n.rhsNonContracting by decide)]
  rfl

/-- The matrix product into a zero block, at one entry: the contraction runs over the sixteen hidden rows. -/
theorem matmul1_apply (l : FVec Ideal S3x16 .bf16) (r : FVec Ideal S16x66688 .bf16) (f : Fin 3) (q : Fin 66688) :
    FloatOps.matmul dot_S3x16_S16x66688_S3x66688_1_0_0_1_n_n none l r
        (constant (F := Ideal) S3x66688 .f32 0x00000000#32) (ix2 f q)
      = ∑ k : Fin 16, l (ix2 f k) * r (ix2 k q) := by
  rw [Ideal.matmul_constant_zero_apply,
    ← Equiv.sum_comp (contrEquiv1 dot_S3x16_S16x66688_S3x66688_1_0_0_1_n_n 16 rfl rfl).symm]
  refine Finset.sum_congr rfl fun k _ => ?_
  have hk := contrEquiv1_symm_val dot_S3x16_S16x66688_S3x66688_1_0_0_1_n_n 16 rfl rfl k
  have el : dot_S3x16_S16x66688_S3x66688_1_0_0_1_n_n.lhsIdx (ix2 f q)
      ((contrEquiv1 dot_S3x16_S16x66688_S3x66688_1_0_0_1_n_n 16 rfl rfl).symm k) = ix2 f k :=
    funext fun a => Fin.ext (by
      match a with
      | ⟨0, _⟩ => exact lhs1_row _ _
      | ⟨1, _⟩ => exact (dot_S3x16_S16x66688_S3x66688_1_0_0_1_n_n.lhsIdx_val_of_single rfl _ _).trans hk)
  have er : dot_S3x16_S16x66688_S3x66688_1_0_0_1_n_n.rhsIdx (ix2 f q)
      ((contrEquiv1 dot_S3x16_S16x66688_S3x66688_1_0_0_1_n_n 16 rfl rfl).symm k) = ix2 k q :=
    funext fun a => Fin.ext (by
      match a with
      | ⟨0, _⟩ => exact (dot_S3x16_S16x66688_S3x66688_1_0_0_1_n_n.rhsIdx_val_of_single rfl _ _).trans hk
      | ⟨1, _⟩ => exact rhs1_col _ _)
  rw [el, er]

/-- The body's arithmetic at one entry of its block. -/
theorem pay1_apply (x0 : Vec Ideal S16x66688 .f32) (x1 : Vec Ideal S1x66688 .f32) (x2 : Vec Ideal S16x1 .f32)
    (x3 : Vec Ideal S3x16 .f32) (f : Fin 3) (q : Fin 66688) :
    k1_pay1 x0 x1 x2 x3 (ix2 f q)
      = (∑ k : Fin 16, x3 (ix2 f k)
          * max (x0 (ix2 k q) * x1 (ix2 (0 : Fin 1) q) + x2 (ix2 k (0 : Fin 1))) (Ideal.ofBits .f32 0x00000000#32))
        * x1 (ix2 (0 : Fin 1) q) := by
  unfold k1_pay1
  simp only [shapeCast_self, matmul]
  rw [mulf_apply, broadcastTo_1b_ab_apply, matmul1_apply]
  refine congrArg (· * _) (Finset.sum_congr rfl fun k _ => ?_)
  rw [truncf_apply, truncf_apply, maximumf_apply, addf_apply, mulf_apply, broadcastTo_1b_ab_apply,
    broadcastTo_col1_apply, broadcast_apply]
  rfl

theorem hz1 : (![0, 0] : Fin 2 → Nat) = fun _ => 0 := funext fun a => by fin_cases a <;> rfl

/-- The block index maps over the grid: the column windows sit at block t of the column axis, the bias and the
    weights are whole. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val :=
  (by decide +kernel : ∀ t : Fin grid1.N, _)

theorem lt_N1 (t : Fin cfg1.N) : t.val < 3 := t.isLt.trans_eq N_1

variable (V : (c : Dev nD) → (b : Ref sig .tc) → Buf (Elt Ideal) ((c : Thread nD τ).loc b))

/-- The block of the scattered sums at point t is columns 66688 t ... 66688 t + 66687 of the array. -/
theorem iblk1_0_apply (c : Dev nD) (t : Fin cfg1.N) (k : Fin 16) (q : Fin 66688) (hb : t.val * 66688 + q.val < 200064) :
    (iblk1 V c 0 t : Vec Ideal S16x66688 .f32) (ix2 k q)
      = (V c (Pipeline.arrRef spec1 0) : S16x200064.Idx → EReal) (ix2 k ⟨t.val * 66688 + q.val, hb⟩) := by
  obtain ⟨e0, e1, -⟩ := idx_facts1 t
  unfold iblk1
  show (V c (Pipeline.arrRef spec1 0) : S16x200064.Idx → EReal) (((cfg1.win 0).blk t).view.emb (ix2 k q)) = _
  refine congrArg _ (funext fun a => Fin.ext ?_)
  match a with
  | ⟨0, _⟩ => show win1_0.index t 0 * 16 + 1 * k.val = k.val; rw [e0]; omega
  | ⟨1, _⟩ => show win1_0.index t 1 * 66688 + 1 * q.val = t.val * 66688 + q.val; rw [e1]; omega

/-- The block of the normalisation factors at point t is the same columns of the one-row array. -/
theorem iblk1_1_apply (c : Dev nD) (t : Fin cfg1.N) (q : Fin 66688) (hb : t.val * 66688 + q.val < 200064) :
    (iblk1 V c 1 t : Vec Ideal S1x66688 .f32) (ix2 (0 : Fin 1) q)
      = (V c (Pipeline.arrRef spec1 1) : S1x200064.Idx → EReal) (ix2 (0 : Fin 1) ⟨t.val * 66688 + q.val, hb⟩) := by
  obtain ⟨-, -, e0, e1, -⟩ := idx_facts1 t
  unfold iblk1
  show (V c (Pipeline.arrRef spec1 1) : S1x200064.Idx → EReal) (((cfg1.win 1).blk t).view.emb (ix2 (0 : Fin 1) q)) = _
  refine congrArg _ (funext fun a => Fin.ext ?_)
  match a with
  | ⟨0, _⟩ => show win1_1.index t 0 * 1 + 1 * 0 = 0; rw [e0]
  | ⟨1, _⟩ => show win1_1.index t 1 * 66688 + 1 * q.val = t.val * 66688 + q.val; rw [e1]; omega

/-- The bias is read whole at every point. -/
theorem iblk1_2_apply (c : Dev nD) (t : Fin cfg1.N) (k : Fin 16) :
    (iblk1 V c 2 t : Vec Ideal S16x1 .f32) (ix2 k (0 : Fin 1))
      = (V c (Pipeline.arrRef spec1 2) : S16x1.Idx → EReal) (ix2 k (0 : Fin 1)) := by
  obtain ⟨-, -, -, -, e0, e1, -⟩ := idx_facts1 t
  unfold iblk1
  show (V c (Pipeline.arrRef spec1 2) : S16x1.Idx → EReal) (((cfg1.win 2).blk t).view.emb (ix2 k (0 : Fin 1))) = _
  refine congrArg _ (funext fun a => Fin.ext ?_)
  match a with
  | ⟨0, _⟩ => show win1_2.index t 0 * 16 + 1 * k.val = k.val; rw [e0]; omega
  | ⟨1, _⟩ => show win1_2.index t 1 * 1 + 1 * 0 = 0; rw [e1]

/-- The weights are read whole at every point. -/
theorem iblk1_3_apply (c : Dev nD) (t : Fin cfg1.N) (f : Fin 3) (k : Fin 16) :
    (iblk1 V c 3 t : Vec Ideal S3x16 .f32) (ix2 f k)
      = (V c (Pipeline.arrRef spec1 3) : S3x16.Idx → EReal) (ix2 f k) := by
  obtain ⟨-, -, -, -, -, -, e0, e1, -⟩ := idx_facts1 t
  unfold iblk1
  show (V c (Pipeline.arrRef spec1 3) : S3x16.Idx → EReal) (((cfg1.win 3).blk t).view.emb (ix2 f k)) = _
  refine congrArg _ (funext fun a => Fin.ext ?_)
  match a with
  | ⟨0, _⟩ => show win1_3.index t 0 * 3 + 1 * f.val = f.val; rw [e0]; omega
  | ⟨1, _⟩ => show win1_3.index t 1 * 16 + 1 * k.val = k.val; rw [e1]; omega

/-- What point t writes back is block t of midOut of the arrays the region finds. -/
theorem flushed1_eq (c : Dev nD) (t : Fin cfg1.N) :
    (dat1 V c).flushed 4 t = ((cfg1.win 4).blk t).view.read (Elt Ideal)
      (midOut (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero hz1]
  simp only [View.ld_unit_zero (S := S16x66688) hz1, View.ld_unit_zero (S := S1x66688) hz1,
    View.ld_unit_zero (S := S16x1) hz1, View.ld_unit_zero (S := S3x16) hz1]
  obtain ⟨-, -, -, -, -, -, -, -, e0, e1⟩ := idx_facts1 t
  have ht := lt_N1 t
  funext y
  obtain ⟨f, q, rfl⟩ : ∃ (f : Fin 3) (q : Fin 66688), y = ix2 f q := ⟨y 0, y 1, eq_ix2 y⟩
  have hb : t.val * 66688 + q.val < 200064 := by have := q.isLt; omega
  have hemb : ((cfg1.win 4).blk t).view.emb (ix2 f q) = (ix2 f ⟨t.val * 66688 + q.val, hb⟩ : S3x200064.Idx) :=
    funext fun a => Fin.ext (by
      match a with
      | ⟨0, _⟩ => show win1_4.index t 0 * 3 + 1 * f.val = f.val; rw [e0]; omega
      | ⟨1, _⟩ => show win1_4.index t 1 * 66688 + 1 * q.val = t.val * 66688 + q.val; rw [e1]; omega)
  show k1_pay1 (iblk1 V c 0 t) (iblk1 V c 1 t) (iblk1 V c 2 t) (iblk1 V c 3 t) (ix2 f q)
    = midOut _ _ _ _ (((cfg1.win 4).blk t).view.emb (ix2 f q))
  rw [hemb, midOut_apply]
  refine (pay1_apply _ _ _ _ f q).trans ?_
  rw [iblk1_1_apply V c t q hb]
  refine congrArg (· * _) (Finset.sum_congr rfl fun k _ => ?_)
  rw [iblk1_0_apply V c t k q hb, iblk1_2_apply V c t k, iblk1_3_apply V c t f k]

/-- An index of the array is in point t's block iff each coordinate is in the block's range on its axis. -/
theorem mem_blk1 (t : Fin cfg1.N) (i : S3x200064.Idx) :
    i ∈ ((cfg1.win 4).blk t).view.set ↔ ∀ a : Fin 2, win1_4.index t a * S3x66688.size a ≤ (i a).val
      ∧ (i a).val < win1_4.index t a * S3x66688.size a + S3x66688.size a := by
  show i ∈ ((View.whole main_v38).slice (win1_4.rect t)).set ↔ _
  rw [View.set_slice_whole, Rect.mem_set_unit]
  exact Iff.rfl

/-- The three blocks tile the array: column j is in the block of point j / 66688. -/
theorem cover1 (i : S3x200064.Idx) :
    ∃ t : Fin cfg1.N, (cfg1.win 4).flush t = true ∧ i ∈ ((cfg1.win 4).blk t).view.set := by
  have hi0 : (i 0).val < 3 := idx2_lt0 i
  have hi1 : (i 1).val < 200064 := idx2_lt1 i
  refine ⟨⟨(i 1).val / 66688, (by omega : (i 1).val / 66688 < 3).trans_eq N_1.symm⟩, flush1_4 _, ?_⟩
  rw [mem_blk1]
  obtain ⟨-, -, -, -, -, -, -, -, e0, e1⟩ := idx_facts1 ⟨(i 1).val / 66688, (by omega : (i 1).val / 66688 < 3).trans_eq N_1.symm⟩
  intro a
  match a with
  | ⟨0, _⟩ =>
    show win1_4.index _ (0 : Fin 2) * 3 ≤ (i 0).val ∧ (i 0).val < win1_4.index _ (0 : Fin 2) * 3 + 3
    rw [e0]; omega
  | ⟨1, _⟩ =>
    show win1_4.index _ (1 : Fin 2) * 66688 ≤ (i 1).val ∧ (i 1).val < win1_4.index _ (1 : Fin 2) * 66688 + 66688
    rw [e1]
    show (i 1).val / 66688 * 66688 ≤ (i 1).val ∧ (i 1).val < (i 1).val / 66688 * 66688 + 66688
    omega

/-- The output array of the second region after all its grid points. -/
theorem final1 (c : Dev nD) :
    (dat1 V c).arrAt 4 cfg1.N
      = midOut (V c (Pipeline.arrRef spec1 0)) (V c (Pipeline.arrRef spec1 1)) (V c (Pipeline.arrRef spec1 2))
          (V c (Pipeline.arrRef spec1 3)) :=
  (dat1 V c).arrAt_eq_of_cover 4 _ (fun t _ => flushed1_eq V c t) cover1

end Cert.KernelIdeal.RegionValue

end
-- ==== Proof.Region2.lean ====
import proofs.«177786_j29454885716720_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The third region: the last scaling and bias

Every column j of the [3, 200064] output is the column of the scattered sums scaled by the column's
normalisation factor, plus the bias of the row: out[f, j] = raw[f, j] * dv[0, j] + b[f, 0]. The region computes
it on three blocks of 66688 columns; the blocks tile the array, so the array ends holding that function of the
three input arrays. -/

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- The output of the third region as one function of its three input arrays, index by index. -/
def finalOut (raw : S3x200064.Idx → EReal) (dv : S1x200064.Idx → EReal) (b : S3x1.Idx → EReal) :
    S3x200064.Idx → EReal :=
  fun i => raw i * dv (ix2 (0 : Fin 1) (⟨(i 1).val, idx2_lt1 i⟩ : Fin 200064))
    + b (ix2 (⟨(i 0).val, idx2_lt0 i⟩ : Fin 3) (0 : Fin 1))

theorem finalOut_apply (raw : S3x200064.Idx → EReal) (dv : S1x200064.Idx → EReal) (b : S3x1.Idx → EReal)
    (f : Fin 3) (j : Fin 200064) :
    finalOut raw dv b (ix2 f j) = raw (ix2 f j) * dv (ix2 (0 : Fin 1) j) + b (ix2 f (0 : Fin 1)) := rfl

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one entry of its block. -/
theorem pay2_apply (x0 : Vec Ideal S3x66688 .f32) (x1 : Vec Ideal S1x66688 .f32) (x2 : Vec Ideal S3x1 .f32)
    (f : Fin 3) (q : Fin 66688) :
    k2_pay1 x0 x1 x2 (ix2 f q) = x0 (ix2 f q) * x1 (ix2 (0 : Fin 1) q) + x2 (ix2 f (0 : Fin 1)) := by
  unfold k2_pay1
  simp only [shapeCast_self]
  rw [addf_apply, mulf_apply, broadcastTo_1b_ab_apply, broadcastTo_a1_ab_apply]

theorem hz : (![0, 0] : Fin 2 → Nat) = fun _ => 0 := funext fun a => by fin_cases a <;> rfl

/-- The block index maps over the grid: the column windows sit at block t of the column axis, the bias is whole. -/
theorem idx_facts2 : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = t.val :=
  (by decide +kernel : ∀ t : Fin grid2.N, _)

theorem lt_N2 (t : Fin cfg2.N) : t.val < 3 := t.isLt.trans_eq N_2

variable (V : (c : Dev nD) → (b : Ref sig .tc) → Buf (Elt Ideal) ((c : Thread nD τ).loc b))

/-- The block of the scattered sums at point t is columns 66688 t ... 66688 t + 66687 of the array. -/
theorem iblk2_0_apply (c : Dev nD) (t : Fin cfg2.N) (f : Fin 3) (q : Fin 66688) (hb : t.val * 66688 + q.val < 200064) :
    (iblk2 V c 0 t : Vec Ideal S3x66688 .f32) (ix2 f q)
      = (V c (Pipeline.arrRef spec2 0) : S3x200064.Idx → EReal) (ix2 f ⟨t.val * 66688 + q.val, hb⟩) := by
  obtain ⟨e0, e1, -⟩ := idx_facts2 t
  unfold iblk2
  show (V c (Pipeline.arrRef spec2 0) : S3x200064.Idx → EReal) (((cfg2.win 0).blk t).view.emb (ix2 f q)) = _
  refine congrArg _ (funext fun a => Fin.ext ?_)
  match a with
  | ⟨0, _⟩ => show win2_0.index t 0 * 3 + 1 * f.val = f.val; rw [e0]; omega
  | ⟨1, _⟩ => show win2_0.index t 1 * 66688 + 1 * q.val = t.val * 66688 + q.val; rw [e1]; omega

/-- The block of the normalisation factors at point t is the same columns of the one-row array. -/
theorem iblk2_1_apply (c : Dev nD) (t : Fin cfg2.N) (q : Fin 66688) (hb : t.val * 66688 + q.val < 200064) :
    (iblk2 V c 1 t : Vec Ideal S1x66688 .f32) (ix2 (0 : Fin 1) q)
      = (V c (Pipeline.arrRef spec2 1) : S1x200064.Idx → EReal) (ix2 (0 : Fin 1) ⟨t.val * 66688 + q.val, hb⟩) := by
  obtain ⟨-, -, e0, e1, -⟩ := idx_facts2 t
  unfold iblk2
  show (V c (Pipeline.arrRef spec2 1) : S1x200064.Idx → EReal) (((cfg2.win 1).blk t).view.emb (ix2 (0 : Fin 1) q)) = _
  refine congrArg _ (funext fun a => Fin.ext ?_)
  match a with
  | ⟨0, _⟩ => show win2_1.index t 0 * 1 + 1 * 0 = 0; rw [e0]
  | ⟨1, _⟩ => show win2_1.index t 1 * 66688 + 1 * q.val = t.val * 66688 + q.val; rw [e1]; omega

/-- The bias is read whole at every point. -/
theorem iblk2_2_apply (c : Dev nD) (t : Fin cfg2.N) (f : Fin 3) :
    (iblk2 V c 2 t : Vec Ideal S3x1 .f32) (ix2 f (0 : Fin 1))
      = (V c (Pipeline.arrRef spec2 2) : S3x1.Idx → EReal) (ix2 f (0 : Fin 1)) := by
  obtain ⟨-, -, -, -, e0, e1, -⟩ := idx_facts2 t
  unfold iblk2
  show (V c (Pipeline.arrRef spec2 2) : S3x1.Idx → EReal) (((cfg2.win 2).blk t).view.emb (ix2 f (0 : Fin 1))) = _
  refine congrArg _ (funext fun a => Fin.ext ?_)
  match a with
  | ⟨0, _⟩ => show win2_2.index t 0 * 3 + 1 * f.val = f.val; rw [e0]; omega
  | ⟨1, _⟩ => show win2_2.index t 1 * 1 + 1 * 0 = 0; rw [e1]

/-- What point t writes back is block t of finalOut of the arrays the region finds. -/
theorem flushed2_eq (c : Dev nD) (t : Fin cfg2.N) :
    (dat2 V c).flushed 3 t = ((cfg2.win 3).blk t).view.read (Elt Ideal)
      (finalOut (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S3x66688) hz, View.ld_unit_zero (S := S1x66688) hz, View.ld_unit_zero (S := S3x1) hz]
  obtain ⟨-, -, -, -, -, -, e0, e1⟩ := idx_facts2 t
  have ht := lt_N2 t
  funext y
  obtain ⟨f, q, rfl⟩ : ∃ (f : Fin 3) (q : Fin 66688), y = ix2 f q := ⟨y 0, y 1, eq_ix2 y⟩
  have hb : t.val * 66688 + q.val < 200064 := by have := q.isLt; omega
  have hemb : ((cfg2.win 3).blk t).view.emb (ix2 f q) = (ix2 f ⟨t.val * 66688 + q.val, hb⟩ : S3x200064.Idx) :=
    funext fun a => Fin.ext (by
      match a with
      | ⟨0, _⟩ => show win2_3.index t 0 * 3 + 1 * f.val = f.val; rw [e0]; omega
      | ⟨1, _⟩ => show win2_3.index t 1 * 66688 + 1 * q.val = t.val * 66688 + q.val; rw [e1]; omega)
  show k2_pay1 (iblk2 V c 0 t) (iblk2 V c 1 t) (iblk2 V c 2 t) (ix2 f q)
    = finalOut _ _ _ (((cfg2.win 3).blk t).view.emb (ix2 f q))
  rw [hemb, finalOut_apply]
  refine (pay2_apply _ _ _ f q).trans ?_
  rw [iblk2_0_apply V c t f q hb, iblk2_1_apply V c t q hb, iblk2_2_apply V c t f]

/-- An index of the array is in point t's block iff each coordinate is in the block's range on its axis. -/
theorem mem_blk2 (t : Fin cfg2.N) (i : S3x200064.Idx) :
    i ∈ ((cfg2.win 3).blk t).view.set ↔ ∀ a : Fin 2, win2_3.index t a * S3x66688.size a ≤ (i a).val
      ∧ (i a).val < win2_3.index t a * S3x66688.size a + S3x66688.size a := by
  show i ∈ ((View.whole main_v53).slice (win2_3.rect t)).set ↔ _
  rw [View.set_slice_whole, Rect.mem_set_unit]
  exact Iff.rfl

/-- The three blocks tile the array: column j is in the block of point j / 66688. -/
theorem cover2 (i : S3x200064.Idx) :
    ∃ t : Fin cfg2.N, (cfg2.win 3).flush t = true ∧ i ∈ ((cfg2.win 3).blk t).view.set := by
  have hi0 : (i 0).val < 3 := idx2_lt0 i
  have hi1 : (i 1).val < 200064 := idx2_lt1 i
  refine ⟨⟨(i 1).val / 66688, (by omega : (i 1).val / 66688 < 3).trans_eq N_2.symm⟩, flush2_3 _, ?_⟩
  rw [mem_blk2]
  obtain ⟨-, -, -, -, -, -, e0, e1⟩ := idx_facts2 ⟨(i 1).val / 66688, (by omega : (i 1).val / 66688 < 3).trans_eq N_2.symm⟩
  intro a
  match a with
  | ⟨0, _⟩ =>
    show win2_3.index _ (0 : Fin 2) * 3 ≤ (i 0).val ∧ (i 0).val < win2_3.index _ (0 : Fin 2) * 3 + 3
    rw [e0]; omega
  | ⟨1, _⟩ =>
    show win2_3.index _ (1 : Fin 2) * 66688 ≤ (i 1).val ∧ (i 1).val < win2_3.index _ (1 : Fin 2) * 66688 + 66688
    rw [e1]
    show (i 1).val / 66688 * 66688 ≤ (i 1).val ∧ (i 1).val < (i 1).val / 66688 * 66688 + 66688
    omega

/-- The output array of the third region after all its grid points. -/
theorem final2 (c : Dev nD) :
    (dat2 V c).arrAt 3 cfg2.N
      = finalOut (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.RegionValue

end
-- ==== Proof.GcnLaw.lean ====
/-
  The one algebraic law behind a symmetric-normalized graph convolution, over the extended reals.

  A layer aggregates, into node `n`, the rows `H (g e)` of its edges `e`, each weighted by
  `dinv (g e) · dinv n` (`dinv` the inverse square root of the degree), and adds a bias. Written edge by edge the
  weight multiplies every term of the sum; written node by node the source factor `dinv (g e)` is applied before the
  sum and the destination factor `dinv n` once after it. The two agree because `dinv n` is a NONNEGATIVE REAL:
  multiplication by such a factor distributes over every sum of extended reals, whatever the terms are (for a
  factor `⊤`, or a negative one, it would not). And `dinv n` is a nonnegative real whatever the degree is:
  `0` where the degree is not positive, `1/√deg` at a positive real, and `0` at `⊤`.
-/
import Idealize.ShloMosaic.PureOps.Ideal
import Idealize.ShloMosaic.Lib.ValueIdx

noncomputable section
namespace Cert.Gcn
open Idealize.ShloMosaic Idealize.ShloMosaic.ValueIdx

/-- A nonnegative finite factor distributes over a finite sum of extended reals. -/
theorem sum_mul_of_nonneg_ne_top {ι : Type} (s : Finset ι) (a : ι → EReal) {c : EReal} (h0 : 0 ≤ c) (ht : c ≠ ⊤) :
    (∑ e ∈ s, a e) * c = ∑ e ∈ s, a e * c := by
  classical
  induction s using Finset.induction_on with
  | empty => simp
  | insert x s hx ih =>
    rw [Finset.sum_insert hx, Finset.sum_insert hx, EReal.right_distrib_of_nonneg_of_ne_top h0 ht, ih]

/-- The inverse square root of a degree, guarded: `1/√deg` where `deg > 0`, else `0`. -/
def invSqrtDeg (deg : EReal) : EReal := Scalar.select (Ideal.cmp .ogt deg 0) (Ideal.rsqrt deg) 0

/-- Whatever the degree, its guarded inverse square root is a nonnegative real: never negative, never `⊤`. -/
theorem invSqrtDeg_nonneg_ne_top (deg : EReal) : 0 ≤ invSqrtDeg deg ∧ invSqrtDeg deg ≠ ⊤ := by
  unfold invSqrtDeg Ideal.cmp
  by_cases h : (0 : EReal) < deg
  · have hc : BitVec.ofBool (decide ((0 : EReal) < deg)) = 1#1 := by simp [h]
    simp only [hc, select_one]
    induction deg using EReal.rec with
    | bot => exact absurd h (by simp)
    | top => simp
    | coe r =>
      have hr : 0 < r := by exact_mod_cast h
      rw [Ideal.rsqrt_coe, if_neg (not_lt.2 hr.le), if_neg hr.ne']
      refine ⟨by exact_mod_cast (inv_nonneg.2 (Real.sqrt_nonneg r)), EReal.coe_ne_top _⟩
  · have hc : BitVec.ofBool (decide ((0 : EReal) < deg)) = 0#1 := by simp [h]
    simp only [hc, select_zero]
    exact ⟨le_refl _, EReal.zero_ne_top⟩

variable {ι : Type} {N : Nat}

/-- A layer written node by node: the source factor inside the sum, the destination factor once outside it. -/
def layerNode (s : Finset ι) (g : ι → Fin N) (dinv : Fin N → EReal) (H : Fin N → EReal) (b : EReal) (n : Fin N) : EReal :=
  (∑ e ∈ s, H (g e) * dinv (g e)) * dinv n + b

/-- A layer written edge by edge: each edge's row times the product of its two factors (the three gathers may use
    three index arrays: `g` for the row, `g₂` for the source factor, `gd` for the destination factor). -/
def layerEdge (s : Finset ι) (g g₂ gd : ι → Fin N) (dinv : Fin N → EReal) (H : Fin N → EReal) (b : EReal) : EReal :=
  (∑ e ∈ s, H (g e) * (dinv (g₂ e) * dinv (gd e))) + b

/-- The two ways of writing a layer agree at node `n` when, on the edges aggregated into `n`, the source factor is
    read at the row's own index and the destination factor at `n`, and `dinv n` is a nonnegative real. -/
theorem layerNode_eq_layerEdge (s : Finset ι) (g g₂ gd : ι → Fin N) (dinv : Fin N → EReal) (H : Fin N → EReal)
    (b : EReal) (n : Fin N) (hg₂ : ∀ e ∈ s, g₂ e = g e) (hgd : ∀ e ∈ s, gd e = n)
    (h0 : 0 ≤ dinv n) (ht : dinv n ≠ ⊤) :
    layerNode s g dinv H b n = layerEdge s g g₂ gd dinv H b := by
  unfold layerNode layerEdge
  rw [sum_mul_of_nonneg_ne_top _ _ h0 ht]
  congr 1
  refine Finset.sum_congr rfl fun e he => ?_
  rw [hg₂ e he, hgd e he, mul_assoc]

end Cert.Gcn
-- ==== Proof.KernelValue.lean ====
/-
  The kernel program's result, index by index.

  Region by region, with `S j` the edges sent to node `j`, `g e` the gathered source row of edge `e` and `dinv` the
  guarded inverse square root of the degree:
  * the first region leaves, at `(k, column i)`, `(∑ l, W1 (l, k) · x (i, l)) · dinv i`;
  * the hop sums that over the edges into node `j`, and the second region scales the sum by `dinv j`, adds `b1 k`,
    clamps at zero — the hidden feature `hid j k` — contracts it with `W2` and scales by `dinv j` again;
  * the hop sums that over the edges into node `n`, and the third region scales by `dinv n` and adds `b2 f`.
  So the result at `(n, f)` is a layer written node by node over the hidden features, themselves the clamp of a
  layer written node by node over the input features.
-/
import proofs.«177786_j29454885716720_1_alg».proof.Proof.KernelChain
import proofs.«177786_j29454885716720_1_alg».proof.Proof.KernelIndex
import proofs.«177786_j29454885716720_1_alg».proof.Proof.Region0
import proofs.«177786_j29454885716720_1_alg».proof.Proof.Region1
import proofs.«177786_j29454885716720_1_alg».proof.Proof.Region2
import proofs.«177786_j29454885716720_1_alg».proof.Proof.GcnLaw

set_option maxRecDepth 16384

noncomputable section

namespace Cert.KernelIdeal.HostValue

open Idealize.ShloMosaic Idealize.ShloMosaic.TcCoe Idealize.SL.Sem Idealize.ShloMosaic.ValueIdx
open Cert.KernelIdeal Cert.KernelIdeal.Gen Cert.KernelIdeal.RegionValue Cert.Gcn

/-- The hidden feature of node `j`, channel `k`: the first layer, written node by node, clamped at zero. -/
def hid (x : F32 S200000x3) (e1 : I32 S2x6400000) (w1 : F32 S3x16) (b1 : F32 S16) (j : Fin 200000) (k : Fin 16) : EReal :=
  max (layerNode (edgesInto (colIdx (dstIdx e1)) j) (gRow (wrapIdx (srcIdx e1))) (fun i => dinvV e1 (ix1 i))
        (fun i => ∑ l : Fin 3, w1 (ix2 l k) * x (ix2 i l)) (b1 (ix1 k)) j) 0

/-- The output of node `n`, channel `f`: the second layer, written node by node, over the hidden features. -/
def outAt (x : F32 S200000x3) (e1 : I32 S2x6400000) (w1 : F32 S3x16) (b1 : F32 S16) (w2 : F32 S16x3) (b2 : F32 S3)
    (n : Fin 200000) (f : Fin 3) : EReal :=
  layerNode (edgesInto (colIdx (dstIdx e1)) n) (gRow (wrapIdx (srcIdx e1))) (fun i => dinvV e1 (ix1 i))
    (fun j => ∑ k : Fin 16, w2 (ix2 k f) * hid x e1 w1 b1 j k) (b2 (ix1 f)) n

variable (m : (ℓ : Loc nD τ sig) → Buf (Elt Ideal) ℓ) (ρ : Dev nD → PrngReg) (c : Dev nD)

/-- The six argument arrays as launched: features, edge array, first weights and bias, second weights and bias. -/
abbrev A0 : F32 S200000x3 := m ((c : Thread nD τ).loc main_arg0)
abbrev A1 : I32 S2x6400000 := m ((c : Thread nD τ).loc main_arg1)
abbrev A2 : F32 S3x16 := m ((c : Thread nD τ).loc main_arg2)
abbrev A3 : F32 S16 := m ((c : Thread nD τ).loc main_arg3)
abbrev A4 : F32 S16x3 := m ((c : Thread nD τ).loc main_arg4)
abbrev A5 : F32 S3 := m ((c : Thread nD τ).loc main_arg5)

/-- What the first region leaves at `(k, column i)`. -/
theorem region0_at (i : Fin 200000) (k : Fin 16) :
    (dat0 (V6 m ρ) c).arrAt 3 cfg0.N (ix2 k (colOf i))
      = (∑ l : Fin 3, A2 m c (ix2 l k) * A0 m c (ix2 i l)) * dinvV (A1 m c) (ix1 i) := by
  rw [final0 (V6 m ρ) c, prepOut_apply, V6_0, V6_1, V6_2, dinvPad_apply]
  refine congrArg₂ (· * ·) (Finset.sum_congr rfl fun l _ => ?_) rfl
  rw [featPad_apply, transpose_ix2_apply]

/-- What the second region leaves at `(f, column j)`. -/
theorem region1_at (j : Fin 200000) (f : Fin 3) :
    (dat1 (V9 m ρ) c).arrAt 4 cfg1.N (ix2 f (colOf j))
      = (∑ k : Fin 16, A4 m c (ix2 k f) * hid (A0 m c) (A1 m c) (A2 m c) (A3 m c) j k) * dinvV (A1 m c) (ix1 j) := by
  rw [final1 (V9 m ρ) c, midOut_apply, V9_0, V9_1, V9_2, V9_3, dinvPad_apply]
  refine congrArg₂ (· * ·) (Finset.sum_congr rfl fun k _ => ?_) rfl
  rw [transpose_ix2_apply, Cert.Keepdims.shapeCast_a_a1_apply, hop16_apply, Ideal.ofBits_zero_f32, zero_add]
  unfold hid layerNode
  simp only [region0_at]

/-- The result buffer at `(n, f)`. -/
theorem result_at (n : Fin 200000) (f : Fin 3) :
    (W14 m ρ c (Proc.devRef .tc main_v55) : F32 S200000x3) (ix2 n f)
      = outAt (A0 m c) (A1 m c) (A2 m c) (A3 m c) (A4 m c) (A5 m c) n f := by
  rw [W14_v55, unpadT_apply, final2 (V12 m ρ) c, finalOut_apply, V12_0, V12_1, V12_2, dinvPad_apply,
    Cert.Keepdims.shapeCast_a_a1_apply, hop3_apply, Ideal.ofBits_zero_f32, zero_add]
  unfold outAt layerNode
  simp only [region1_at]

/-- The whole result array as one function of the arguments. -/
def kernelOut (x : F32 S200000x3) (e1 : I32 S2x6400000) (w1 : F32 S3x16) (b1 : F32 S16) (w2 : F32 S16x3) (b2 : F32 S3) :
    F32 S200000x3 :=
  fun i => outAt x e1 w1 b1 w2 b2 ⟨(i 0).val, idx2_lt0 i⟩ ⟨(i 1).val, idx2_lt1 i⟩

theorem result_eq :
    (W14 m ρ c (Proc.devRef .tc main_v55) : F32 S200000x3)
      = kernelOut (A0 m c) (A1 m c) (A2 m c) (A3 m c) (A4 m c) (A5 m c) := by
  funext i
  have hi : i = ix2 (⟨(i 0).val, idx2_lt0 i⟩ : Fin 200000) (⟨(i 1).val, idx2_lt1 i⟩ : Fin 3) := eq_ix2 i
  rw [hi, result_at]
  rfl

end Cert.KernelIdeal.HostValue

end
-- ==== Proof.RefValue.lean ====
/-
  The reference's value at an index.

  The reference is two graph-convolution layers. For every node `n` and feature `f` a layer holds the sum, over the
  edges sent to `n`, of the gathered row of the projected features times the product of the two gathered
  inverse-square-root degree factors, plus the bias; between the layers the features pass through `max · 0`.
  Here each layer's result is read index by index: the gathers through the clamped rows of their index arrays, the
  accumulating scatters as sums over the edges sent to a row, the projections as finite sums over the contracted axis.
-/
import proofs.«177786_j29454885716720_1_alg».proof.Proof.RefReadP
import proofs.«177786_j29454885716720_1_alg».proof.Proof.GcnEdges
import proofs.«177786_j29454885716720_1_alg».proof.Proof.GcnLaw
import Idealize.ShloMosaic.Lib.ValueIdx
import Idealize.ShloMosaic.PureOps.Ideal.Laws

noncomputable section
namespace Cert.ReferenceIdeal.RefValue
open Cert.ReferenceIdeal Cert.ReferenceIdeal.Gen Idealize.ShloMosaic Idealize.ShloMosaic.ValueIdx Idealize.ShloMosaic.StableHlo
open Cert.Lib.GatherRows Cert.Lib.ScatterRows Cert.Gcn

/-- The node features `[200000, 3]`. -/
abbrev TX0 : Type := (⟨S200000x3, .f32⟩ : BufTy).Contents (Elt Ideal)
/-- The edge list `[2, 6400000]`. -/
abbrev TX1 : Type := (⟨S2x6400000, .i32⟩ : BufTy).Contents (Elt Ideal)
/-- The first layer's weights `[3, 16]`. -/
abbrev TX2 : Type := (⟨S3x16, .f32⟩ : BufTy).Contents (Elt Ideal)
/-- The first layer's bias `[16]`. -/
abbrev TX3 : Type := (⟨S16, .f32⟩ : BufTy).Contents (Elt Ideal)
/-- The second layer's weights `[16, 3]`. -/
abbrev TX4 : Type := (⟨S16x3, .f32⟩ : BufTy).Contents (Elt Ideal)
/-- The second layer's bias `[3]`. -/
abbrev TX5 : Type := (⟨S3, .f32⟩ : BufTy).Contents (Elt Ideal)

/-! ### The guarded inverse square root of the degree -/

/-- Layer 1: the factor table is the guarded inverse square root of the degree table. -/
theorem dinv1_eq (x1 : TX1) (j : Fin 200000) :
    ReadP.val_main_v14 (F := Ideal) x1 (ix1 j) = invSqrtDeg (ReadP.val_main_v10 (F := Ideal) x1 (ix1 j)) := by
  rw [ReadP.val_main_v14_apply, ReadP.val_main_v12_apply, ReadP.val_main_v13_apply, ReadP.val_main_call0_v1_apply,
    ReadP.val_main_call0_v0_apply, ReadP.val_main_cst_2_apply, ReadP.val_main_v11_apply, ReadP.val_main_cst_1_apply]
  simp only [Ideal.ofBits_def, Ideal.ofBits_zero_f32, Ideal.hostUnary_rsqrt_def]
  rfl

/-- Layer 2: the same. -/
theorem dinv2_eq (x1 : TX1) (j : Fin 200000) :
    ReadP.val_main_v58 (F := Ideal) x1 (ix1 j) = invSqrtDeg (ReadP.val_main_v54 (F := Ideal) x1 (ix1 j)) := by
  rw [ReadP.val_main_v58_apply, ReadP.val_main_v56_apply, ReadP.val_main_v57_apply, ReadP.val_main_call2_v1_apply,
    ReadP.val_main_call2_v0_apply, ReadP.val_main_cst_12_apply, ReadP.val_main_v55_apply, ReadP.val_main_cst_11_apply]
  simp only [Ideal.ofBits_def, Ideal.ofBits_zero_f32, Ideal.hostUnary_rsqrt_def]
  rfl

/-! ### Layer 1, operation by operation -/

/-- The source factor of edge `e`: the factor table at the row its index array names. -/
theorem v21_at (x1 : TX1) (e : Fin 6600000) :
    ReadP.val_main_v21 (F := Ideal) x1 (ix1 e)
      = ReadP.val_main_v14 (F := Ideal) x1 (ix1 (gRow (ReadP.val_main_v20 (F := Ideal) x1) e)) := by
  unfold ReadP.val_main_v21 gRow
  exact gather_vec_apply NN_pos _ rfl rfl rfl rfl rfl rfl rfl _ _ e

/-- The destination factor of edge `e`. -/
theorem v28_at (x1 : TX1) (e : Fin 6600000) :
    ReadP.val_main_v28 (F := Ideal) x1 (ix1 e)
      = ReadP.val_main_v14 (F := Ideal) x1 (ix1 (gRow (ReadP.val_main_v27 (F := Ideal) x1) e)) := by
  unfold ReadP.val_main_v28 gRow
  exact gather_vec_apply NN_pos _ rfl rfl rfl rfl rfl rfl rfl _ _ e

/-- The projected features: a sum over the three input features. -/
theorem v30_at (x0 : TX0) (x2 : TX2) (i : Fin 200000) (k : Fin 16) :
    ReadP.val_main_v30 (F := Ideal) x0 x2 (ix2 i k) = ∑ l : Fin 3, x0 (ix2 i l) * x2 (ix2 l k) := by
  rw [ReadP.val_main_v30_apply]
  refine Finset.sum_congr rfl fun l _ => ?_
  have el : ReadP.lidx_main_v30 (ix2 i k) l = ix2 i l := funext fun a => by
    match a with
    | ⟨0, _⟩ => rfl
    | ⟨1, _⟩ => rfl
  have er : ReadP.ridx_main_v30 (ix2 i k) l = ix2 l k := funext fun a => by
    match a with
    | ⟨0, _⟩ => rfl
    | ⟨1, _⟩ => rfl
  rw [el, er]

/-- The gathered row of the projected features. -/
theorem v37_at (x0 : TX0) (x1 : TX1) (x2 : TX2) (e : Fin 6600000) (k : Fin 16) :
    ReadP.val_main_v37 (F := Ideal) x0 x1 x2 (ix2 e k)
      = ReadP.val_main_v30 (F := Ideal) x0 x2 (ix2 (gRow (ReadP.val_main_v36 (F := Ideal) x1) e) k) := by
  unfold ReadP.val_main_v37 gRow
  exact gather_rows_apply NN_pos _ rfl rfl rfl rfl rfl rfl rfl _ _ e k

/-- The edge weight, broadcast along the features. -/
theorem v39_at (x1 : TX1) (e : Fin 6600000) (k : Fin 16) :
    ReadP.val_main_v39 (F := Ideal) x1 (ix2 e k)
      = ReadP.val_main_v14 (F := Ideal) x1 (ix1 (gRow (ReadP.val_main_v20 (F := Ideal) x1) e))
        * ReadP.val_main_v14 (F := Ideal) x1 (ix1 (gRow (ReadP.val_main_v27 (F := Ideal) x1) e)) := by
  rw [ReadP.val_main_v39_apply, ReadP.val_main_v38_apply]
  have hi : ReadP.idx_main_v38 (ReadP.idx_main_v39 (ix2 e k)) = ix1 e := funext fun a => by
    match a with
    | ⟨0, _⟩ => rfl
  rw [hi, ReadP.val_main_v29_apply, v21_at, v28_at, Ideal.mulf_def]

/-- The host's accumulating scatter over the extended reals is the exact accumulation. -/
theorem host_scatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := by
  unfold Host.scatterAdd
  exact Ideal.hostScatterAdd_def d .single x idx upd

/-- The edges sent to node `n`, as the filter an accumulating scatter sums over. -/
theorem edgesInto_eq (D : EIdx) (n : Fin NN) :
    edgesInto D n = Finset.univ.filter fun e => rowOf D e = (n.val : Int) := rfl

theorem layerEdge_eq {ι : Type} {N : Nat} (s : Finset ι) (g g₂ gd : ι → Fin N) (dinv : Fin N → EReal) (H : Fin N → EReal)
    (b : EReal) : layerEdge s g g₂ gd dinv H b = (∑ e ∈ s, H (g e) * (dinv (g₂ e) * dinv (gd e))) + b := rfl

/-- The aggregated messages: the sum over the edges sent to node `j`. -/
theorem v43_at (x0 : TX0) (x1 : TX1) (x2 : TX2) (j : Fin 200000) (k : Fin 16) :
    ReadP.val_main_v43 (F := Ideal) x0 x1 x2 (ix2 j k)
      = ∑ e ∈ edgesInto (ReadP.val_main_v42 (F := Ideal) x1) j, ReadP.val_main_v40 (F := Ideal) x0 x1 x2 (ix2 e k) := by
  unfold ReadP.val_main_v43
  rw [host_scatterAdd_eq, hostScatterAdd_rows_apply scatter_S200000x16_S6600000x1_S6600000x16_1_0_0_1 rfl rfl rfl rfl,
    ReadP.val_main_v41_apply, ReadP.val_main_cst_8_apply, Ideal.ofBits_def, Ideal.ofBits_zero_f32, zero_add, edgesInto_eq]

/-- The bias, broadcast along the nodes. -/
theorem v45_at (x3 : TX3) (j : Fin 200000) (k : Fin 16) :
    ReadP.val_main_v45 (F := Ideal) x3 (ix2 j k) = x3 (ix1 k) := by
  rw [ReadP.val_main_v45_apply, ReadP.val_main_v44_apply]
  have hi : ReadP.idx_main_v44 (ReadP.idx_main_v45 (ix2 j k)) = ix1 k := funext fun a => by
    match a with
    | ⟨0, _⟩ => rfl
  rw [hi]

/-- One message of layer 1: the gathered projected row times the edge weight. -/
theorem v40_at (x0 : TX0) (x1 : TX1) (x2 : TX2) (e : Fin 6600000) (k : Fin 16) :
    ReadP.val_main_v40 (F := Ideal) x0 x1 x2 (ix2 e k)
      = (∑ l : Fin 3, x0 (ix2 (gRow (ReadP.val_main_v36 (F := Ideal) x1) e) l) * x2 (ix2 l k))
        * (ReadP.val_main_v14 (F := Ideal) x1 (ix1 (gRow (ReadP.val_main_v20 (F := Ideal) x1) e))
          * ReadP.val_main_v14 (F := Ideal) x1 (ix1 (gRow (ReadP.val_main_v27 (F := Ideal) x1) e))) := by
  rw [ReadP.val_main_v40_apply, v37_at, v39_at, v30_at, Ideal.mulf_def]

/-- The hidden features: the first layer at node `j`, feature `k`, passed through `max · 0`. -/
def hidden (x0 : TX0) (x1 : TX1) (x2 : TX2) (x3 : TX3) (j : Fin 200000) (k : Fin 16) : EReal :=
  max (layerEdge (edgesInto (ReadP.val_main_v42 (F := Ideal) x1) j) (gRow (ReadP.val_main_v36 (F := Ideal) x1))
        (gRow (ReadP.val_main_v20 (F := Ideal) x1)) (gRow (ReadP.val_main_v27 (F := Ideal) x1))
        (fun i => ReadP.val_main_v14 (F := Ideal) x1 (ix1 i)) (fun i => ∑ l : Fin 3, x0 (ix2 i l) * x2 (ix2 l k))
        (x3 (ix1 k))) 0

theorem hidden_eq (x0 : TX0) (x1 : TX1) (x2 : TX2) (x3 : TX3) (j : Fin 200000) (k : Fin 16) :
    ReadP.val_main_v47 (F := Ideal) x0 x1 x2 x3 (ix2 j k) = hidden x0 x1 x2 x3 j k := by
  rw [ReadP.val_main_v47_apply, ReadP.val_main_v46_apply, ReadP.val_main_call1_v0_apply, ReadP.val_main_call1_cst_apply,
    v43_at, v45_at, Ideal.ofBits_def, Ideal.ofBits_zero_f32, Ideal.maximumf_def, Ideal.addf_def]
  unfold hidden
  rw [layerEdge_eq]
  refine congrArg₂ max (congrArg₂ (· + ·) (Finset.sum_congr rfl fun e _ => ?_) rfl) rfl
  exact v40_at x0 x1 x2 e k

/-! ### Layer 2, operation by operation -/

/-- The source factor of edge `e`. -/
theorem v65_at (x1 : TX1) (e : Fin 6600000) :
    ReadP.val_main_v65 (F := Ideal) x1 (ix1 e)
      = ReadP.val_main_v58 (F := Ideal) x1 (ix1 (gRow (ReadP.val_main_v64 (F := Ideal) x1) e)) := by
  unfold ReadP.val_main_v65 gRow
  exact gather_vec_apply NN_pos _ rfl rfl rfl rfl rfl rfl rfl _ _ e

/-- The destination factor of edge `e`. -/
theorem v72_at (x1 : TX1) (e : Fin 6600000) :
    ReadP.val_main_v72 (F := Ideal) x1 (ix1 e)
      = ReadP.val_main_v58 (F := Ideal) x1 (ix1 (gRow (ReadP.val_main_v71 (F := Ideal) x1) e)) := by
  unfold ReadP.val_main_v72 gRow
  exact gather_vec_apply NN_pos _ rfl rfl rfl rfl rfl rfl rfl _ _ e

/-- The projected hidden features: a sum over the sixteen hidden features. -/
theorem v74_at (x0 : TX0) (x1 : TX1) (x2 : TX2) (x3 : TX3) (x4 : TX4) (i : Fin 200000) (f : Fin 3) :
    ReadP.val_main_v74 (F := Ideal) x0 x1 x2 x3 x4 (ix2 i f) = ∑ k : Fin 16, hidden x0 x1 x2 x3 i k * x4 (ix2 k f) := by
  rw [ReadP.val_main_v74_apply]
  refine Finset.sum_congr rfl fun k _ => ?_
  have el : ReadP.lidx_main_v74 (ix2 i f) k = ix2 i k := funext fun a => by
    match a with
    | ⟨0, _⟩ => rfl
    | ⟨1, _⟩ => rfl
  have er : ReadP.ridx_main_v74 (ix2 i f) k = ix2 k f := funext fun a => by
    match a with
    | ⟨0, _⟩ => rfl
    | ⟨1, _⟩ => rfl
  rw [el, er, hidden_eq]

/-- The gathered row of the projected hidden features. -/
theorem v81_at (x0 : TX0) (x1 : TX1) (x2 : TX2) (x3 : TX3) (x4 : TX4) (e : Fin 6600000) (f : Fin 3) :
    ReadP.val_main_v81 (F := Ideal) x0 x1 x2 x3 x4 (ix2 e f)
      = ReadP.val_main_v74 (F := Ideal) x0 x1 x2 x3 x4 (ix2 (gRow (ReadP.val_main_v80 (F := Ideal) x1) e) f) := by
  unfold ReadP.val_main_v81 gRow
  exact gather_rows_apply NN_pos _ rfl rfl rfl rfl rfl rfl rfl _ _ e f

/-- The edge weight, broadcast along the features. -/
theorem v83_at (x1 : TX1) (e : Fin 6600000) (f : Fin 3) :
    ReadP.val_main_v83 (F := Ideal) x1 (ix2 e f)
      = ReadP.val_main_v58 (F := Ideal) x1 (ix1 (gRow (ReadP.val_main_v64 (F := Ideal) x1) e))
        * ReadP.val_main_v58 (F := Ideal) x1 (ix1 (gRow (ReadP.val_main_v71 (F := Ideal) x1) e)) := by
  rw [ReadP.val_main_v83_apply, ReadP.val_main_v82_apply]
  have hi : ReadP.idx_main_v82 (ReadP.idx_main_v83 (ix2 e f)) = ix1 e := funext fun a => by
    match a with
    | ⟨0, _⟩ => rfl
  rw [hi, ReadP.val_main_v73_apply, v65_at, v72_at, Ideal.mulf_def]

/-- One message of layer 2: the gathered projected row times the edge weight. -/
theorem v84_at (x0 : TX0) (x1 : TX1) (x2 : TX2) (x3 : TX3) (x4 : TX4) (e : Fin 6600000) (f : Fin 3) :
    ReadP.val_main_v84 (F := Ideal) x0 x1 x2 x3 x4 (ix2 e f)
      = (∑ k : Fin 16, hidden x0 x1 x2 x3 (gRow (ReadP.val_main_v80 (F := Ideal) x1) e) k * x4 (ix2 k f))
        * (ReadP.val_main_v58 (F := Ideal) x1 (ix1 (gRow (ReadP.val_main_v64 (F := Ideal) x1) e))
          * ReadP.val_main_v58 (F := Ideal) x1 (ix1 (gRow (ReadP.val_main_v71 (F := Ideal) x1) e))) := by
  rw [ReadP.val_main_v84_apply, v81_at, v83_at, v74_at, Ideal.mulf_def]

/-- The aggregated messages: the sum over the edges sent to node `n`. -/
theorem v87_at (x0 : TX0) (x1 : TX1) (x2 : TX2) (x3 : TX3) (x4 : TX4) (n : Fin 200000) (f : Fin 3) :
    ReadP.val_main_v87 (F := Ideal) x0 x1 x2 x3 x4 (ix2 n f)
      = ∑ e ∈ edgesInto (ReadP.val_main_v86 (F := Ideal) x1) n, ReadP.val_main_v84 (F := Ideal) x0 x1 x2 x3 x4 (ix2 e f) := by
  unfold ReadP.val_main_v87
  rw [host_scatterAdd_eq, hostScatterAdd_rows_apply scatter_S200000x3_S6600000x1_S6600000x3_1_0_0_1 rfl rfl rfl rfl,
    ReadP.val_main_v85_apply, ReadP.val_main_cst_19_apply, Ideal.ofBits_def, Ideal.ofBits_zero_f32, zero_add, edgesInto_eq]

/-- The bias, broadcast along the nodes. -/
theorem v89_at (x5 : TX5) (n : Fin 200000) (f : Fin 3) :
    ReadP.val_main_v89 (F := Ideal) x5 (ix2 n f) = x5 (ix1 f) := by
  rw [ReadP.val_main_v89_apply, ReadP.val_main_v88_apply]
  have hi : ReadP.idx_main_v88 (ReadP.idx_main_v89 (ix2 n f)) = ix1 f := funext fun a => by
    match a with
    | ⟨0, _⟩ => rfl
  rw [hi]

/-- The reference at node `n`, feature `f`: the second layer over the hidden features. -/
theorem ref_at (x0 : TX0) (x1 : TX1) (x2 : TX2) (x3 : TX3) (x4 : TX4) (x5 : TX5) (n : Fin 200000) (f : Fin 3) :
    ReadP.val_main_v90 (F := Ideal) x0 x1 x2 x3 x4 x5 (ix2 n f)
      = layerEdge (edgesInto (ReadP.val_main_v86 (F := Ideal) x1) n) (gRow (ReadP.val_main_v80 (F := Ideal) x1))
          (gRow (ReadP.val_main_v64 (F := Ideal) x1)) (gRow (ReadP.val_main_v71 (F := Ideal) x1))
          (fun j => ReadP.val_main_v58 (F := Ideal) x1 (ix1 j))
          (fun j => ∑ k : Fin 16, hidden x0 x1 x2 x3 j k * x4 (ix2 k f)) (x5 (ix1 f)) := by
  rw [ReadP.val_main_v90_apply, v87_at, v89_at, Ideal.addf_def, layerEdge_eq]
  refine congrArg₂ (· + ·) (Finset.sum_congr rfl fun e _ => ?_) rfl
  exact v84_at x0 x1 x2 x3 x4 e f

end Cert.ReferenceIdeal.RefValue
-- ==== Proof.Bridge.lean ====
/-
  The two programs compute one function.

  Index by index the kernel program's result is a layer written node by node over hidden features that are the
  clamp of a layer written node by node; the reference's is the same two layers written edge by edge. The index
  arrays and the `dinv` vector of the two programs are the same terms of the edge array. On the edges sent to a node
  the destination factor is read at that node (a destination index that is a row number is not negative, so the
  wrap of negative indices leaves it), the source factor at the row's own index, and `dinv` is a nonnegative real
  whatever the degree: so each layer written node by node is the layer written edge by edge.
-/
import proofs.«177786_j29454885716720_1_alg».proof.Proof.KernelValue
import proofs.«177786_j29454885716720_1_alg».proof.Proof.RefValue

set_option maxRecDepth 16384

noncomputable section

namespace Cert.Bridge

open Idealize.ShloMosaic Idealize.ShloMosaic.ValueIdx
open Cert.Gcn Cert.KernelIdeal.HostValue

attribute [local irreducible] Host.scatterAdd Host.gather

abbrev E1 : Type := IVec Cert.KernelIdeal.S2x6400000 32

/-! ## The shared terms: the reference's stages are the kernel program's -/

theorem dst_col (e1 : E1) : Cert.ReferenceIdeal.ReadP.val_main_v42 (F := Ideal) e1 = colIdx (dstIdx e1) := rfl
theorem dst_col' (e1 : E1) : Cert.ReferenceIdeal.ReadP.val_main_v86 (F := Ideal) e1 = colIdx (dstIdx e1) := rfl
theorem src_wrap (e1 : E1) : Cert.ReferenceIdeal.ReadP.val_main_v36 (F := Ideal) e1 = wrapIdx (srcIdx e1) := rfl
theorem src_wrap₂ (e1 : E1) : Cert.ReferenceIdeal.ReadP.val_main_v20 (F := Ideal) e1 = wrapIdx (srcIdx e1) := rfl
theorem src_wrap' (e1 : E1) : Cert.ReferenceIdeal.ReadP.val_main_v80 (F := Ideal) e1 = wrapIdx (srcIdx e1) := rfl
theorem src_wrap₂' (e1 : E1) : Cert.ReferenceIdeal.ReadP.val_main_v64 (F := Ideal) e1 = wrapIdx (srcIdx e1) := rfl
theorem dst_wrap (e1 : E1) : Cert.ReferenceIdeal.ReadP.val_main_v27 (F := Ideal) e1 = wrapIdx (dstIdx e1) := rfl
theorem dst_wrap' (e1 : E1) : Cert.ReferenceIdeal.ReadP.val_main_v71 (F := Ideal) e1 = wrapIdx (dstIdx e1) := rfl
theorem dinv_eq (e1 : E1) : Cert.ReferenceIdeal.ReadP.val_main_v14 (F := Ideal) e1 = dinvV e1 := rfl
theorem dinv_eq' (e1 : E1) : Cert.ReferenceIdeal.ReadP.val_main_v58 (F := Ideal) e1 = dinvV e1 := rfl

/-- `dinv` at a node is the guarded inverse square root of that node's degree: a nonnegative real. -/
theorem dinv_nonneg_ne_top (e1 : E1) (n : Fin 200000) : 0 ≤ dinvV e1 (ix1 n) ∧ dinvV e1 (ix1 n) ≠ ⊤ := by
  rw [← dinv_eq e1, Cert.ReferenceIdeal.RefValue.dinv1_eq e1 n]
  exact invSqrtDeg_nonneg_ne_top _

/-! ## One layer: node by node is edge by edge -/

/-- A layer of the kernel program at node `n` is the reference's layer there, for any rows `H` and bias `b`. -/
theorem layer_bridge (e1 : E1) (H : Fin 200000 → EReal) (b : EReal) (n : Fin 200000) :
    layerNode (edgesInto (colIdx (dstIdx e1)) n) (gRow (wrapIdx (srcIdx e1))) (fun i => dinvV e1 (ix1 i)) H b n
      = layerEdge (edgesInto (colIdx (dstIdx e1)) n) (gRow (wrapIdx (srcIdx e1))) (gRow (wrapIdx (srcIdx e1)))
          (gRow (wrapIdx (dstIdx e1))) (fun i => dinvV e1 (ix1 i)) H b :=
  layerNode_eq_layerEdge _ _ _ _ _ H b n (fun _ _ => rfl) (fun e he => gRow_wrap_dst (dstIdx e1) n e he)
    (dinv_nonneg_ne_top e1 n).1 (dinv_nonneg_ne_top e1 n).2

/-! ## Both layers -/

/-- The hidden features of the two programs are one function. -/
theorem hid_eq (x : F32 Cert.KernelIdeal.S200000x3) (e1 : E1) (w1 : F32 Cert.KernelIdeal.S3x16) (b1 : F32 Cert.KernelIdeal.S16)
    (j : Fin 200000) (k : Fin 16) :
    hid x e1 w1 b1 j k = Cert.ReferenceIdeal.RefValue.hidden x e1 w1 b1 j k := by
  unfold hid Cert.ReferenceIdeal.RefValue.hidden
  rw [layer_bridge, dst_col, src_wrap, src_wrap₂, dst_wrap, dinv_eq]
  have hH : (fun i : Fin 200000 => ∑ l : Fin 3, w1 (ix2 l k) * x (ix2 i l))
      = fun i : Fin 200000 => ∑ l : Fin 3, x (ix2 i l) * w1 (ix2 l k) :=
    funext fun i => Finset.sum_congr rfl fun l _ => mul_comm _ _
  rw [hH]

/-- The results of the two programs agree at every `(n, f)`. -/
theorem out_eq (x : F32 Cert.KernelIdeal.S200000x3) (e1 : E1) (w1 : F32 Cert.KernelIdeal.S3x16) (b1 : F32 Cert.KernelIdeal.S16)
    (w2 : F32 Cert.KernelIdeal.S16x3) (b2 : F32 Cert.KernelIdeal.S3) (n : Fin 200000) (f : Fin 3) :
    outAt x e1 w1 b1 w2 b2 n f = Cert.ReferenceIdeal.ReadP.val_main_v90 (F := Ideal) x e1 w1 b1 w2 b2 (ix2 n f) := by
  rw [Cert.ReferenceIdeal.RefValue.ref_at]
  unfold outAt
  rw [layer_bridge, dst_col', src_wrap', src_wrap₂', dst_wrap', dinv_eq']
  have hH : (fun j : Fin 200000 => ∑ k : Fin 16, w2 (ix2 k f) * hid x e1 w1 b1 j k)
      = fun j : Fin 200000 => ∑ k : Fin 16, Cert.ReferenceIdeal.RefValue.hidden x e1 w1 b1 j k * w2 (ix2 k f) :=
    funext fun j => Finset.sum_congr rfl fun k _ => by rw [hid_eq, mul_comm]
  rw [hH]

/-- The kernel program's whole result array is the reference's. -/
theorem kernelOut_eq (x : F32 Cert.KernelIdeal.S200000x3) (e1 : E1) (w1 : F32 Cert.KernelIdeal.S3x16) (b1 : F32 Cert.KernelIdeal.S16)
    (w2 : F32 Cert.KernelIdeal.S16x3) (b2 : F32 Cert.KernelIdeal.S3) :
    kernelOut x e1 w1 b1 w2 b2 = Cert.ReferenceIdeal.ReadP.val_main_v90 (F := Ideal) x e1 w1 b1 w2 b2 := by
  funext i
  show outAt x e1 w1 b1 w2 b2 ⟨(i 0).val, idx2_lt0 i⟩ ⟨(i 1).val, idx2_lt1 i⟩ = _
  rw [out_eq]
  exact congrArg (Cert.ReferenceIdeal.ReadP.val_main_v90 (F := Ideal) x e1 w1 b1 w2 b2) (eq_ix2 i).symm

end Cert.Bridge

end
-- ==== Proof.lean ====
/-
  Two graph-convolution layers, each `out n = ∑ over the edges e into n of h (src e) · dinv (src e) · dinv n + b`
  with self loops added and `dinv` the inverse square root of the in-degree (zero where the degree is not positive),
  a clamp at zero between them.

  The kernel program computes each layer node by node: a region multiplies the features by the weights and scales
  every node's row by its own `dinv`; the host gathers each edge's source row and sums the rows into the edge's
  destination; the next region scales every node's sum by its own `dinv` and adds the bias (and, between the layers,
  clamps and goes on with the second product). The reference computes each layer edge by edge, scaling every
  gathered row by `dinv (src e) · dinv (dst e)` before the sum. At the idealized instance the two agree: `dinv n` is a
  nonnegative real whatever the degree, and a nonnegative real factor distributes over any finite sum of extended
  reals; on the edges summed into `n` the destination factor is `dinv n`. Nothing is asked of the float inputs, so
  the precondition is not used; integer indices outside the node range are clamped by both programs' gathers and
  dropped by both programs' scatters alike.

  The three frames: the two kernel programs' are the generated frame certificates; the reference's is its run with
  the result dropped. The idealization ledger is empty.
-/
import proofs.«177786_j29454885716720_1_alg».proof.Defs
import proofs.«177786_j29454885716720_1_alg».proof.Proof.Gen.Kernel
import proofs.«177786_j29454885716720_1_alg».proof.Proof.Gen.Kernel.Frame
import proofs.«177786_j29454885716720_1_alg».proof.Proof.Gen.KernelIdeal
import proofs.«177786_j29454885716720_1_alg».proof.Proof.Gen.KernelIdeal.Frame
import proofs.«177786_j29454885716720_1_alg».proof.Proof.Gen.ReferenceIdeal
import proofs.«177786_j29454885716720_1_alg».proof.Proof.Gen.Pre_finite_inputs
import proofs.«177786_j29454885716720_1_alg».proof.Proof.KernelRun
import proofs.«177786_j29454885716720_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten by the idealization: nothing to preserve. -/
theorem preserves : Cert.preserves_Kernel_KernelIdeal := trivial

/-- Both idealized programs end with the result array `kernelOut` of the arguments: the kernel program by its run
    and its regions' closed forms, the reference by its run, the two functions being one. -/
theorem algebraic : Cert.algebraic_KernelIdeal_ReferenceIdeal := by
  intro m ρ m' ρ' _ hagree
  refine ⟨fun c => Cert.KernelIdeal.HostValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]
    exact (Cert.Bridge.kernelOut_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
